-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x602 : Shape := ⟨2, ![50000, 602]⟩
abbrev S600000 : Shape := ⟨1, ![600000]⟩
abbrev S602x128 : Shape := ⟨2, ![602, 128]⟩
abbrev S128 : Shape := ⟨1, ![128]⟩
abbrev S128x128 : Shape := ⟨2, ![128, 128]⟩
abbrev S128x41 : Shape := ⟨2, ![128, 41]⟩
abbrev S41 : Shape := ⟨1, ![41]⟩
abbrev S_ : Shape := ⟨0, ![]⟩

class Facts : Prop where
  bcast_S_S50000x602 : S_.BroadcastsInDim S50000x602 (![] : Fin 0 → Fin S50000x602.rank)
  reducesTo_S50000x602_S_d0_1 : S50000x602.ReducesTo [0, 1] S_
  h_S_ : 0 < S_.numel
  bcast_S_S602x128 : S_.BroadcastsInDim S602x128 (![] : Fin 0 → Fin S602x128.rank)
  reducesTo_S602x128_S_d0_1 : S602x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x41 : S_.BroadcastsInDim S128x41 (![] : Fin 0 → Fin S128x41.rank)
  reducesTo_S128x41_S_d0_1 : S128x41.ReducesTo [0, 1] S_
  bcast_S_S41 : S_.BroadcastsInDim S41 (![] : Fin 0 → Fin S41.rank)
  reducesTo_S41_S_d0 : S41.ReducesTo [0] S_

variable [Facts]

def fn_part2 {F : FTy → Type} [FloatOps F] (main_arg9 : FVec F S128x41 .f32) (main_arg10 : FVec F S41 .f32) (main_v33 : IVec S_ 1) : IVec S_ 1 :=
  let main_v34 : FVec F S128x41 .f32 := Host.absf main_arg9
  let main_cst_12 : FVec F S_ .f32 := constant S_ .f32 0x7F800000#32
  let main_v35 : FVec F S128x41 .f32 := broadcastInDim S128x41 ![] bcast_S_S128x41 main_cst_12
  let main_v36 : IVec S128x41 1 := cmpf .olt main_v34 main_v35
  let main_c_13 : IVec S_ 1 := constantI S_ 1 1#1
  let main_v37 : IVec S_ 1 := (fun x v => Host.reduce IntOp.andi x v reducesTo_S128x41_S_d0_1 h_S_) main_v36 main_c_13
  let main_v38 : IVec S_ 1 := andi main_v33 main_v37
  let main_v39 : FVec F S41 .f32 := Host.absf main_arg10
  let main_cst_14 : FVec F S_ .f32 := constant S_ .f32 0x7F800000#32
  let main_v40 : FVec F S41 .f32 := broadcastInDim S41 ![] bcast_S_S41 main_cst_14
  let main_v41 : IVec S41 1 := cmpf .olt main_v39 main_v40
  let main_c_15 : IVec S_ 1 := constantI S_ 1 1#1
  let main_v42 : IVec S_ 1 := (fun x v => Host.reduce IntOp.andi x v reducesTo_S41_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x41 .f32) (main_arg10 : FVec F S41 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x602 .f32) (main_arg1 : IVec S600000 32) (main_arg2 : IVec S600000 32) (main_arg3 : FVec F S602x128 .f32) (main_arg4 : FVec F S128 .f32) (main_arg5 : FVec F S128x128 .f32) (main_arg6 : FVec F S128 .f32) (main_arg7 : FVec F S128x128 .f32) (main_arg8 : FVec F S128 .f32) (main_arg9 : FVec F S128x41 .f32) (main_arg10 : FVec F S41 .f32) : IVec S_ 1 :=
  let main_v0 : FVec F S50000x602 .f32 := Host.absf main_arg0
  let main_cst : FVec F S_ .f32 := constant S_ .f32 0x7F800000#32
  let main_v1 : FVec F S50000x602 .f32 := broadcastInDim S50000x602 ![] bcast_S_S50000x602 main_cst
  let main_v2 : IVec S50000x602 1 := cmpf .olt main_v0 main_v1
  let main_c : IVec S_ 1 := constantI S_ 1 1#1
  let main_v3 : IVec S_ 1 := (fun x v => Host.reduce IntOp.andi x v reducesTo_S50000x602_S_d0_1 h_S_) main_v2 main_c
  let main_v4 : FVec F S602x128 .f32 := Host.absf main_arg3
  let main_cst_0 : FVec F S_ .f32 := constant S_ .f32 0x7F800000#32
  let main_v5 : FVec F S602x128 .f32 := broadcastInDim S602x128 ![] bcast_S_S602x128 main_cst_0
  let main_v6 : IVec S602x128 1 := cmpf .olt main_v4 main_v5
  let main_c_1 : IVec S_ 1 := constantI S_ 1 1#1
  let main_v7 : IVec S_ 1 := (fun x v => Host.reduce IntOp.andi x v reducesTo_S602x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x602 : Shape := ⟨2, ![50000, 602]⟩
abbrev S600000 : Shape := ⟨1, ![600000]⟩
abbrev S602x128 : Shape := ⟨2, ![602, 128]⟩
abbrev S128 : Shape := ⟨1, ![128]⟩
abbrev S128x128 : Shape := ⟨2, ![128, 128]⟩
abbrev S128x41 : Shape := ⟨2, ![128, 41]⟩
abbrev S41 : Shape := ⟨1, ![41]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S50000x128 : Shape := ⟨2, ![50000, 128]⟩
abbrev S2000x602 : Shape := ⟨2, ![2000, 602]⟩
abbrev S2000x1 : Shape := ⟨2, ![2000, 1]⟩
abbrev S2000x128 : Shape := ⟨2, ![2000, 128]⟩
abbrev S600000x128 : Shape := ⟨2, ![600000, 128]⟩
abbrev S1x128 : Shape := ⟨2, ![1, 128]⟩
abbrev S1x41 : Shape := ⟨2, ![1, 41]⟩
abbrev S50000x41 : Shape := ⟨2, ![50000, 41]⟩
abbrev S2000x41 : Shape := ⟨2, ![2000, 41]⟩

abbrev nBuf : Space → Nat
  | .hbm => 87
  | .vmem => 50
  | .smem => 0
  | _ => 0

abbrev bufTy : (tb : Table) → Fin (tcTables nBuf tb) → BufTy
  | .hbm, ⟨0, _⟩ => ⟨S50000x602, .f32⟩
  | .hbm, ⟨1, _⟩ => ⟨S600000, .i32⟩
  | .hbm, ⟨2, _⟩ => ⟨S600000, .i32⟩
  | .hbm, ⟨3, _⟩ => ⟨S602x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x41, .f32⟩
  | .hbm, ⟨10, _⟩ => ⟨S41, .f32⟩
  | .hbm, ⟨11, _⟩ => ⟨S_, .f32⟩
  | .hbm, ⟨12, _⟩ => ⟨S600000, .f32⟩
  | .hbm, ⟨13, _⟩ => ⟨S_, .f32⟩
  | .hbm, ⟨14, _⟩ => ⟨S50000, .f32⟩
  | .hbm, ⟨15, _⟩ => ⟨S600000x1, .i32⟩
  | .hbm, ⟨16, _⟩ => ⟨S50000, .f32⟩
  | .hbm, ⟨17, _⟩ => ⟨S_, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S600000x1, .i32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S600000x128, .f32⟩
  | .hbm, ⟨42, _⟩ => ⟨S_, .f32⟩
  | .hbm, ⟨43, _⟩ => ⟨S50000x128, .f32⟩
  | .hbm, ⟨44, _⟩ => ⟨S600000x1, .i32⟩
  | .hbm, ⟨45, _⟩ => ⟨S50000x128, .f32⟩
  | .hbm, ⟨46, _⟩ => ⟨S50000x1, .f32⟩
  | .hbm, ⟨47, _⟩ => ⟨S1x128, .f32⟩
  | .hbm, ⟨48, _⟩ => ⟨S50000x128, .f32⟩
  | .hbm, ⟨49, _⟩ => ⟨S50000x1, .f32⟩
  | .hbm, ⟨50, _⟩ => ⟨S50000x128, .f32⟩
  | .hbm, ⟨51, _⟩ => ⟨S_, .i32⟩
  | .hbm, ⟨52, _⟩ => ⟨S600000, .i32⟩
  | .hbm, ⟨53, _⟩ => ⟨S600000, .i1⟩
  | .hbm, ⟨54, _⟩ => ⟨S_, .i32⟩
  | .hbm, ⟨55, _⟩ => ⟨S600000, .i32⟩
  | .hbm, ⟨56, _⟩ => ⟨S600000, .i32⟩
  | .hbm, ⟨57, _⟩ => ⟨S600000, .i32⟩
  | .hbm, ⟨58, _⟩ => ⟨S600000x1, .i32⟩
  | .hbm, ⟨59, _⟩ => ⟨S600000x128, .f32⟩
  | .hbm, ⟨60, _⟩ => ⟨S_, .f32⟩
  | .hbm, ⟨61, _⟩ => ⟨S50000x128, .f32⟩
  | .hbm, ⟨62, _⟩ => ⟨S600000x1, .i32⟩
  | .hbm, ⟨63, _⟩ => ⟨S50000x128, .f32⟩
  | .hbm, ⟨64, _⟩ => ⟨S50000x1, .f32⟩
  | .hbm, ⟨65, _⟩ => ⟨S1x128, .f32⟩
  | .hbm, ⟨66, _⟩ => ⟨S50000x128, .f32⟩
  | .hbm, ⟨67, _⟩ => ⟨S50000x1, .f32⟩
  | .hbm, ⟨68, _⟩ => ⟨S50000x128, .f32⟩
  | .hbm, ⟨69, _⟩ => ⟨S_, .i32⟩
  | .hbm, ⟨70, _⟩ => ⟨S600000, .i32⟩
  | .hbm, ⟨71, _⟩ => ⟨S600000, .i1⟩
  | .hbm, ⟨72, _⟩ => ⟨S_, .i32⟩
  | .hbm, ⟨73, _⟩ => ⟨S600000, .i32⟩
  | .hbm, ⟨74, _⟩ => ⟨S600000, .i32⟩
  | .hbm, ⟨75, _⟩ => ⟨S600000, .i32⟩
  | .hbm, ⟨76, _⟩ => ⟨S600000x1, .i32⟩
  | .hbm, ⟨77, _⟩ => ⟨S600000x128, .f32⟩
  | .hbm, ⟨78, _⟩ => ⟨S_, .f32⟩
  | .hbm, ⟨79, _⟩ => ⟨S50000x128, .f32⟩
  | .hbm, ⟨80, _⟩ => ⟨S600000x1, .i32⟩
  | .hbm, ⟨81, _⟩ => ⟨S50000x128, .f32⟩
  | .hbm, ⟨82, _⟩ => ⟨S50000x1, .f32⟩
  | .hbm, ⟨83, _⟩ => ⟨S1x128, .f32⟩
  | .hbm, ⟨84, _⟩ => ⟨S50000x128, .f32⟩
  | .hbm, ⟨85, _⟩ => ⟨S1x41, .f32⟩
  | .hbm, ⟨86, _⟩ => ⟨S50000x41, .f32⟩
  | .local _ .vmem, ⟨0, _⟩ => ⟨S2000x602, .f32⟩
  | .local _ .vmem, ⟨1, _⟩ => ⟨S2000x602, .f32⟩
  | .local _ .vmem, ⟨2, _⟩ => ⟨S2000x1, .f32⟩
  | .local _ .vmem, ⟨3, _⟩ => ⟨S2000x1, .f32⟩
  | .local _ .vmem, ⟨4, _⟩ => ⟨S602x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x1, .f32⟩
  | .local _ .vmem, ⟨17, _⟩ => ⟨S2000x1, .f32⟩
  | .local _ .vmem, ⟨18, _⟩ => ⟨S128x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x1, .f32⟩
  | .local _ .vmem, ⟨31, _⟩ => ⟨S2000x1, .f32⟩
  | .local _ .vmem, ⟨32, _⟩ => ⟨S128x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x1, .f32⟩
  | .local _ .vmem, ⟨38, _⟩ => ⟨S2000x1, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S128x41, .f32⟩
  | .local _ .vmem, ⟨47, _⟩ => ⟨S1x41, .f32⟩
  | .local _ .vmem, ⟨48, _⟩ => ⟨S2000x41, .f32⟩
  | .local _ .vmem, ⟨49, _⟩ => ⟨S2000x41, .f32⟩
  | _, _ => ⟨S50000x602, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v4 : Ref sig .tc := ⟨.hbm, 20, rfl⟩
abbrev main_cst_2 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_4 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_5 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_6 : Ref sig .tc := ⟨.hbm, 51, rfl⟩
abbrev main_v28 : Ref sig .tc := ⟨.hbm, 52, rfl⟩
abbrev main_v29 : Ref sig .tc := ⟨.hbm, 53, rfl⟩
abbrev main_c_7 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_9 : Ref sig .tc := ⟨.hbm, 69, rfl⟩
abbrev main_v43 : Ref sig .tc := ⟨.hbm, 70, rfl⟩
abbrev main_v44 : Ref sig .tc := ⟨.hbm, 71, rfl⟩
abbrev main_c_10 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_11 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg3_0 : Ref sig .tc := ⟨.vmem, 47, rfl⟩
abbrev cc6_stg4_0 : Ref sig .tc := ⟨.vmem, 48, rfl⟩
abbrev cc6_stg4_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47
abbrev cc6_sem4_0 : DmaSem sig := 48
abbrev cc6_sem4_1 : DmaSem sig := 49

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x602 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S602x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x41 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x41 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S2000x41 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  inb_S2000x602_S2000x602_0_0 : ∀ a, (![0, 0] : Fin 2 → Nat) a + S2000x602.size a ≤ S2000x602.size a
  h_S2000x602 : 0 < S2000x602.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S602x128_S602x128_0_0 : ∀ a, (![0, 0] : Fin 2 → Nat) a + S602x128.size a ≤ S602x128.size a
  h_S602x128 : 0 < S602x128.numel
  broadcasts_S2000x1_S2000x602 : S2000x1.Broadcasts S2000x602
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S2000x1_S2000x128 : S2000x1.Broadcasts S2000x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  shapeCasts_S41_S1x41 : S41.ShapeCasts S1x41
  inb_S128x41_S128x41_0_0 : ∀ a, (![0, 0] : Fin 2 → Nat) a + S128x41.size a ≤ S128x41.size a
  h_S128x41 : 0 < S128x41.numel
  inb_S1x41_S1x41_0_0 : ∀ a, (![0, 0] : Fin 2 → Nat) a + S1x41.size a ≤ S1x41.size a
  h_S1x41 : 0 < S1x41.numel
  shapeCasts_S1x41_S1x41 : S1x41.ShapeCasts S1x41
  broadcasts_S1x41_S2000x41 : S1x41.Broadcasts S2000x41
  inb_S2000x41_S2000x41_0_0 : ∀ a, (![0, 0] : Fin 2 → Nat) a + S2000x41.size a ≤ S2000x41.size a
  h_S2000x41 : 0 < S2000x41.numel
  scatter_S50000_S600000x1_S600000_n_0_0_1_wf : ScatterDims.WF S50000 S600000x1 S600000 [] [0] [0] 1
  dot_S2000x602_S602x128_S2000x128_1_0_0_1_n_n_wf : DotDims.WF S2000x602 S602x128 S2000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  dot_S2000x128_S128x41_S2000x41_1_0_0_1_n_n_wf : DotDims.WF S2000x128 S128x41 S2000x41 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x602.size a ≤ S50000x602.size a
  hwx0_0 : ∀ i : grid0.Coords, EltTy.bits .f32 = 32 ∨ (Rect.block (s := S50000x602) S2000x602.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S602x128.size a ≤ S602x128.size a
  hwx0_2 : ∀ i : grid0.Coords, EltTy.bits .f32 = 32 ∨ (Rect.block (s := S602x128) S602x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S50000x1.size a
  hwx4_1 : ∀ i : grid4.Coords, EltTy.bits .f32 = 32 ∨ (Rect.block (s := S50000x1) S2000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .f32 = 32 ∨ (Rect.block (s := S50000x128) S2000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S50000x1.size a
  hwx5_1 : ∀ i : grid5.Coords, EltTy.bits .f32 = 32 ∨ (Rect.block (s := S50000x1) S2000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S50000x128.size a
  hwx5_3 : ∀ i : grid5.Coords, EltTy.bits .f32 = 32 ∨ (Rect.block (s := S50000x128) S2000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S50000x128.size a
  hwx6_1 : ∀ i : grid6.Coords, EltTy.bits .f32 = 32 ∨ (Rect.block (s := S50000x128) S2000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x41.size a ≤ S128x41.size a
  hwx6_2 : ∀ i : grid6.Coords, EltTy.bits .f32 = 32 ∨ (Rect.block (s := S128x41) S128x41.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x41.size a ≤ S1x41.size a
  hwx6_3 : ∀ i : grid6.Coords, EltTy.bits .f32 = 32 ∨ (Rect.block (s := S1x41) S1x41.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x41.size a ≤ S50000x41.size a
  hwx6_4 : ∀ i : grid6.Coords, EltTy.bits .f32 = 32 ∨ (Rect.block (s := S50000x41) S2000x41.size (cc6_transform_4 i) (hinb6_4 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2000x602_S602x128_S2000x128_1_0_0_1_n_n : DotDims S2000x602 S602x128 S2000x128 where
  lhsContracting := [1]
  rhsContracting := [0]
  lhsNonContracting := [0]
  rhsNonContracting := [1]
  lhsBatch := []
  rhsBatch := []
  wf := dot_S2000x602_S602x128_S2000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x41_S2000x41_1_0_0_1_n_n : DotDims S2000x128 S128x41 S2000x41 where
  lhsContracting := [1]
  rhsContracting := [0]
  lhsNonContracting := [0]
  rhsNonContracting := [1]
  lhsBatch := []
  rhsBatch := []
  wf := dot_S2000x128_S128x41_S2000x41_1_0_0_1_n_n_wf

abbrev win0_0 : Pipeline.Window sig grid0 :=
  Pipeline.Window.ofSpec (Memref.whole main_arg0) S2000x602.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S602x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v25) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v27) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v37) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v39) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v40) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v42) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v52) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v53) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v54) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v55) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v55) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v40) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg9) S128x41.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v56) S1x41.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v57) S2000x41.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S50000x602 : Shape := ⟨2, ![50000, 602]⟩
abbrev S600000 : Shape := ⟨1, ![600000]⟩
abbrev S602x128 : Shape := ⟨2, ![602, 128]⟩
abbrev S128 : Shape := ⟨1, ![128]⟩
abbrev S128x128 : Shape := ⟨2, ![128, 128]⟩
abbrev S128x41 : Shape := ⟨2, ![128, 41]⟩
abbrev S41 : Shape := ⟨1, ![41]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S50000x128 : Shape := ⟨2, ![50000, 128]⟩
abbrev S600000x128 : Shape := ⟨2, ![600000, 128]⟩
abbrev S1x128 : Shape := ⟨2, ![1, 128]⟩
abbrev S50000x41 : Shape := ⟨2, ![50000, 41]⟩
abbrev S1x41 : Shape := ⟨2, ![1, 41]⟩

abbrev nBuf : Space → Nat
  | .hbm => 203
  | .vmem => 0
  | .smem => 0
  | _ => 0

abbrev hbmTy0_0 (i : Nat) : BufTy := match i % 128 with
  | 0 => ⟨S50000x602, .f32⟩
  | 1 => ⟨S600000, .i32⟩
  | 2 => ⟨S600000, .i32⟩
  | 3 => ⟨S602x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x41, .f32⟩
  | 10 => ⟨S41, .f32⟩
  | 11 => ⟨S_, .f32⟩
  | 12 => ⟨S600000, .f32⟩
  | 13 => ⟨S_, .f32⟩
  | 14 => ⟨S50000, .f32⟩
  | 15 => ⟨S600000x1, .i32⟩
  | 16 => ⟨S50000, .f32⟩
  | 17 => ⟨S_, .f32⟩
  | 18 => ⟨S_, .f32⟩
  | 19 => ⟨S50000, .f32⟩
  | 20 => ⟨S50000, .f32⟩
  | 21 => ⟨S_, .f32⟩
  | 22 => ⟨S50000, .f32⟩
  | 23 => ⟨S600000x1, .i32⟩
  | 24 => ⟨S50000, .f32⟩
  | 25 => ⟨S_, .f32⟩
  | 26 => ⟨S_, .f32⟩
  | 27 => ⟨S50000, .f32⟩
  | 28 => ⟨S50000, .f32⟩
  | 29 => ⟨S50000, .f32⟩
  | 30 => ⟨S50000x1, .f32⟩
  | 31 => ⟨S50000x602, .f32⟩
  | 32 => ⟨S50000x602, .f32⟩
  | 33 => ⟨S50000x128, .f32⟩
  | 34 => ⟨S_, .i32⟩
  | 35 => ⟨S600000, .i32⟩
  | 36 => ⟨S600000, .i1⟩
  | 37 => ⟨S_, .i32⟩
  | 38 => ⟨S600000, .i32⟩
  | 39 => ⟨S600000, .i32⟩
  | 40 => ⟨S600000, .i32⟩
  | 41 => ⟨S600000x1, .i32⟩
  | 42 => ⟨S600000x128, .f32⟩
  | 43 => ⟨S_, .f32⟩
  | 44 => ⟨S50000x128, .f32⟩
  | 45 => ⟨S600000x1, .i32⟩
  | 46 => ⟨S50000x128, .f32⟩
  | 47 => ⟨S50000, .f32⟩
  | 48 => ⟨S50000x1, .f32⟩
  | 49 => ⟨S50000x128, .f32⟩
  | 50 => ⟨S50000x128, .f32⟩
  | 51 => ⟨S1x128, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S_, .f32⟩
  | 58 => ⟨S600000, .f32⟩
  | 59 => ⟨S_, .f32⟩
  | 60 => ⟨S50000, .f32⟩
  | 61 => ⟨S600000x1, .i32⟩
  | 62 => ⟨S50000, .f32⟩
  | 63 => ⟨S_, .f32⟩
  | 64 => ⟨S_, .f32⟩
  | 65 => ⟨S50000, .f32⟩
  | 66 => ⟨S50000, .f32⟩
  | 67 => ⟨S_, .f32⟩
  | 68 => ⟨S50000, .f32⟩
  | 69 => ⟨S600000x1, .i32⟩
  | 70 => ⟨S50000, .f32⟩
  | 71 => ⟨S_, .f32⟩
  | 72 => ⟨S_, .f32⟩
  | 73 => ⟨S50000, .f32⟩
  | 74 => ⟨S50000, .f32⟩
  | 75 => ⟨S50000, .f32⟩
  | 76 => ⟨S50000x1, .f32⟩
  | 77 => ⟨S50000x128, .f32⟩
  | 78 => ⟨S50000x128, .f32⟩
  | 79 => ⟨S50000x128, .f32⟩
  | 80 => ⟨S_, .i32⟩
  | 81 => ⟨S600000, .i32⟩
  | 82 => ⟨S600000, .i1⟩
  | 83 => ⟨S_, .i32⟩
  | 84 => ⟨S600000, .i32⟩
  | 85 => ⟨S600000, .i32⟩
  | 86 => ⟨S600000, .i32⟩
  | 87 => ⟨S600000x1, .i32⟩
  | 88 => ⟨S600000x128, .f32⟩
  | 89 => ⟨S_, .f32⟩
  | 90 => ⟨S50000x128, .f32⟩
  | 91 => ⟨S600000x1, .i32⟩
  | 92 => ⟨S50000x128, .f32⟩
  | 93 => ⟨S50000, .f32⟩
  | 94 => ⟨S50000x1, .f32⟩
  | 95 => ⟨S50000x128, .f32⟩
  | 96 => ⟨S50000x128, .f32⟩
  | 97 => ⟨S1x128, .f32⟩
  | 98 => ⟨S50000x128, .f32⟩
  | 99 => ⟨S50000x128, .f32⟩
  | 100 => ⟨S_, .f32⟩
  | 101 => ⟨S50000x128, .f32⟩
  | 102 => ⟨S50000x128, .f32⟩
  | 103 => ⟨S_, .f32⟩
  | 104 => ⟨S600000, .f32⟩
  | 105 => ⟨S_, .f32⟩
  | 106 => ⟨S50000, .f32⟩
  | 107 => ⟨S600000x1, .i32⟩
  | 108 => ⟨S50000, .f32⟩
  | 109 => ⟨S_, .f32⟩
  | 110 => ⟨S_, .f32⟩
  | 111 => ⟨S50000, .f32⟩
  | 112 => ⟨S50000, .f32⟩
  | 113 => ⟨S_, .f32⟩
  | 114 => ⟨S50000, .f32⟩
  | 115 => ⟨S600000x1, .i32⟩
  | 116 => ⟨S50000, .f32⟩
  | 117 => ⟨S_, .f32⟩
  | 118 => ⟨S_, .f32⟩
  | 119 => ⟨S50000, .f32⟩
  | 120 => ⟨S50000, .f32⟩
  | 121 => ⟨S50000, .f32⟩
  | 122 => ⟨S50000x1, .f32⟩
  | 123 => ⟨S50000x128, .f32⟩
  | 124 => ⟨S50000x128, .f32⟩
  | 125 => ⟨S50000x128, .f32⟩
  | 126 => ⟨S_, .i32⟩
  | 127 => ⟨S600000, .i32⟩
  | _ => ⟨S50000x602, .f32⟩

abbrev hbmTy0_1 (i : Nat) : BufTy := match i % 128 with
  | 0 => ⟨S600000, .i1⟩
  | 1 => ⟨S_, .i32⟩
  | 2 => ⟨S600000, .i32⟩
  | 3 => ⟨S600000, .i32⟩
  | 4 => ⟨S600000, .i32⟩
  | 5 => ⟨S600000x1, .i32⟩
  | 6 => ⟨S600000x128, .f32⟩
  | 7 => ⟨S_, .f32⟩
  | 8 => ⟨S50000x128, .f32⟩
  | 9 => ⟨S600000x1, .i32⟩
  | 10 => ⟨S50000x128, .f32⟩
  | 11 => ⟨S50000, .f32⟩
  | 12 => ⟨S50000x1, .f32⟩
  | 13 => ⟨S50000x128, .f32⟩
  | 14 => ⟨S50000x128, .f32⟩
  | 15 => ⟨S1x128, .f32⟩
  | 16 => ⟨S50000x128, .f32⟩
  | 17 => ⟨S50000x128, .f32⟩
  | 18 => ⟨S_, .f32⟩
  | 19 => ⟨S50000x128, .f32⟩
  | 20 => ⟨S50000x128, .f32⟩
  | 21 => ⟨S_, .f32⟩
  | 22 => ⟨S600000, .f32⟩
  | 23 => ⟨S_, .f32⟩
  | 24 => ⟨S50000, .f32⟩
  | 25 => ⟨S600000x1, .i32⟩
  | 26 => ⟨S50000, .f32⟩
  | 27 => ⟨S_, .f32⟩
  | 28 => ⟨S_, .f32⟩
  | 29 => ⟨S50000, .f32⟩
  | 30 => ⟨S50000, .f32⟩
  | 31 => ⟨S_, .f32⟩
  | 32 => ⟨S50000, .f32⟩
  | 33 => ⟨S600000x1, .i32⟩
  | 34 => ⟨S50000, .f32⟩
  | 35 => ⟨S_, .f32⟩
  | 36 => ⟨S_, .f32⟩
  | 37 => ⟨S50000, .f32⟩
  | 38 => ⟨S50000, .f32⟩
  | 39 => ⟨S50000, .f32⟩
  | 40 => ⟨S50000x1, .f32⟩
  | 41 => ⟨S50000x128, .f32⟩
  | 42 => ⟨S50000x128, .f32⟩
  | 43 => ⟨S50000x128, .f32⟩
  | 44 => ⟨S_, .i32⟩
  | 45 => ⟨S600000, .i32⟩
  | 46 => ⟨S600000, .i1⟩
  | 47 => ⟨S_, .i32⟩
  | 48 => ⟨S600000, .i32⟩
  | 49 => ⟨S600000, .i32⟩
  | 50 => ⟨S600000, .i32⟩
  | 51 => ⟨S600000x1, .i32⟩
  | 52 => ⟨S600000x128, .f32⟩
  | 53 => ⟨S_, .f32⟩
  | 54 => ⟨S50000x128, .f32⟩
  | 55 => ⟨S600000x1, .i32⟩
  | 56 => ⟨S50000x128, .f32⟩
  | 57 => ⟨S50000, .f32⟩
  | 58 => ⟨S50000x1, .f32⟩
  | 59 => ⟨S50000x128, .f32⟩
  | 60 => ⟨S50000x128, .f32⟩
  | 61 => ⟨S1x128, .f32⟩
  | 62 => ⟨S50000x128, .f32⟩
  | 63 => ⟨S50000x128, .f32⟩
  | 64 => ⟨S_, .f32⟩
  | 65 => ⟨S50000x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x41, .f32⟩
  | 72 => ⟨S1x41, .f32⟩
  | 73 => ⟨S50000x41, .f32⟩
  | 74 => ⟨S50000x41, .f32⟩
  | _ => ⟨S50000x602, .f32⟩

abbrev hbmTy (i : Nat) : BufTy := match i / 128 with
  | 0 => hbmTy0_0 i
  | 1 => hbmTy0_1 i
  | _ => ⟨S50000x602, .f32⟩

abbrev bufTy : (tb : Table) → Fin (tcTables nBuf tb) → BufTy
  | .hbm, ⟨i, _⟩ => hbmTy i
  | _, _ => ⟨S50000x602, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v4 : Ref sig .tc := ⟨.hbm, 20, rfl⟩
abbrev main_cst_2 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call2_cst : Ref sig .tc := ⟨.hbm, 54, rfl⟩
abbrev main_call2_v0 : Ref sig .tc := ⟨.hbm, 55, rfl⟩
abbrev main_v31 : Ref sig .tc := ⟨.hbm, 56, rfl⟩
abbrev main_cst_6 : Ref sig .tc := ⟨.hbm, 57, rfl⟩
abbrev main_v32 : Ref sig .tc := ⟨.hbm, 58, rfl⟩
abbrev main_cst_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_8 : Ref sig .tc := ⟨.hbm, 63, rfl⟩
abbrev main_call3_v0 : Ref sig .tc := ⟨.hbm, 64, rfl⟩
abbrev main_call3_v1 : Ref sig .tc := ⟨.hbm, 65, rfl⟩
abbrev main_v36 : Ref sig .tc := ⟨.hbm, 66, rfl⟩
abbrev main_cst_9 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_10 : Ref sig .tc := ⟨.hbm, 71, rfl⟩
abbrev main_call4_v0 : Ref sig .tc := ⟨.hbm, 72, rfl⟩
abbrev main_call4_v1 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_c_11 : Ref sig .tc := ⟨.hbm, 80, rfl⟩
abbrev main_v46 : Ref sig .tc := ⟨.hbm, 81, rfl⟩
abbrev main_v47 : Ref sig .tc := ⟨.hbm, 82, rfl⟩
abbrev main_c_12 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_13 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_call5_cst : Ref sig .tc := ⟨.hbm, 100, rfl⟩
abbrev main_call5_v0 : Ref sig .tc := ⟨.hbm, 101, rfl⟩
abbrev main_v63 : Ref sig .tc := ⟨.hbm, 102, rfl⟩
abbrev main_cst_14 : Ref sig .tc := ⟨.hbm, 103, rfl⟩
abbrev main_v64 : Ref sig .tc := ⟨.hbm, 104, rfl⟩
abbrev main_cst_15 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_16 : Ref sig .tc := ⟨.hbm, 109, rfl⟩
abbrev main_call6_v0 : Ref sig .tc := ⟨.hbm, 110, rfl⟩
abbrev main_call6_v1 : Ref sig .tc := ⟨.hbm, 111, rfl⟩
abbrev main_v68 : Ref sig .tc := ⟨.hbm, 112, rfl⟩
abbrev main_cst_17 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_cst_18 : Ref sig .tc := ⟨.hbm, 117, rfl⟩
abbrev main_call7_v0 : Ref sig .tc := ⟨.hbm, 118, rfl⟩
abbrev main_call7_v1 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_c_19 : Ref sig .tc := ⟨.hbm, 126, rfl⟩
abbrev main_v78 : Ref sig .tc := ⟨.hbm, 127, rfl⟩
abbrev main_v79 : Ref sig .tc := ⟨.hbm, 128, rfl⟩
abbrev main_c_20 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_cst_21 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_call8_cst : Ref sig .tc := ⟨.hbm, 146, rfl⟩
abbrev main_call8_v0 : Ref sig .tc := ⟨.hbm, 147, rfl⟩
abbrev main_v95 : Ref sig .tc := ⟨.hbm, 148, rfl⟩
abbrev main_cst_22 : Ref sig .tc := ⟨.hbm, 149, rfl⟩
abbrev main_v96 : Ref sig .tc := ⟨.hbm, 150, rfl⟩
abbrev main_cst_23 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_cst_24 : Ref sig .tc := ⟨.hbm, 155, rfl⟩
abbrev main_call9_v0 : Ref sig .tc := ⟨.hbm, 156, rfl⟩
abbrev main_call9_v1 : Ref sig .tc := ⟨.hbm, 157, rfl⟩
abbrev main_v100 : Ref sig .tc := ⟨.hbm, 158, rfl⟩
abbrev main_cst_25 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_cst_26 : Ref sig .tc := ⟨.hbm, 163, rfl⟩
abbrev main_call10_v0 : Ref sig .tc := ⟨.hbm, 164, rfl⟩
abbrev main_call10_v1 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_c_27 : Ref sig .tc := ⟨.hbm, 172, rfl⟩
abbrev main_v110 : Ref sig .tc := ⟨.hbm, 173, rfl⟩
abbrev main_v111 : Ref sig .tc := ⟨.hbm, 174, rfl⟩
abbrev main_c_28 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_cst_29 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_call11_cst : Ref sig .tc := ⟨.hbm, 192, rfl⟩
abbrev main_call11_v0 : Ref sig .tc := ⟨.hbm, 193, rfl⟩
abbrev main_v127 : Ref sig .tc := ⟨.hbm, 194, rfl⟩
abbrev main_v128 : Ref sig .tc := ⟨.hbm, 195, rfl⟩
abbrev main_call12_cst : Ref sig .tc := ⟨.hbm, 196, rfl⟩
abbrev main_call12_v0 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x602_0_1 : S50000x1.BroadcastsInDim S50000x602 (![0, 1] : Fin 2 → Fin S50000x602.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S41_S1x41_1 : S41.BroadcastsInDim S1x41 (![1] : Fin 1 → Fin S1x41.rank)
  bcast_S1x41_S50000x41_0_1 : S1x41.BroadcastsInDim S50000x41 (![0, 1] : Fin 2 → Fin S50000x41.rank)
  scatter_S50000_S600000x1_S600000_n_0_0_1_wf : ScatterDims.WF S50000 S600000x1 S600000 [] [0] [0] 1
  dot_S50000x602_S602x128_S50000x128_1_0_0_1_n_n_wf : DotDims.WF S50000x602 S602x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x41_S50000x41_1_0_0_1_n_n_wf : DotDims.WF S50000x128 S128x41 S50000x41 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x602_S602x128_S50000x128_1_0_0_1_n_n : DotDims S50000x602 S602x128 S50000x128 where
  lhsContracting := [1]
  rhsContracting := [0]
  lhsNonContracting := [0]
  rhsNonContracting := [1]
  lhsBatch := []
  rhsBatch := []
  wf := dot_S50000x602_S602x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x41_S50000x41_1_0_0_1_n_n : DotDims S50000x128 S128x41 S50000x41 where
  lhsContracting := [1]
  rhsContracting := [0]
  lhsNonContracting := [0]
  rhsNonContracting := [1]
  lhsBatch := []
  rhsBatch := []
  wf := dot_S50000x128_S128x41_S50000x41_1_0_0_1_n_n_wf

class Facts : Prop extends Facts₀ where

variable [Facts]
-- ==== Proof.KernelRun.lean ====
/-
  The kernel program's run with its result named: every weakly fair execution ends, nothing faulting, with the result
  array at what the last boundary of the run's fold holds there, and the arguments as launched.  The fold is the
  program's own: host operations applied stretch by stretch, each pallas_call's arrays replaced by what its
  write-backs leave.
-/
import proofs.«175351_j60224031424524_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments unchanged. -/
theorem run : θ_run defs (onTc (τ := τ) (main (F := F))) ⟨m, fun _ => 0, ρ⟩ (fun r => ∀ c : Dev nD,
      r.2.mem ((c.tc : Thread nD τ).loc main_v57) = W18 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v57 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c)⟩)

end Cert.KernelIdeal.ValueRun

end
-- ==== Proof.LibRowOps.lean ====
/-
  Rank-two arrays read at an index, over abstract extents.

  * A plain matrix product — rows by contraction times contraction by columns, no batch axis — read at
    `(p, q)` is the sum over the contraction axis of left `(p, k)` times right `(k, q)`: for a kernel's product
    into a zero accumulator and for the host's `dot_general` alike, at the ideal values.
  * A vector of length `N` spread over the rows of an `M × N` array, read at `(p, q)`, is the vector at `q`:
    spelt as a shape cast followed by a broadcast, or as two `broadcast_in_dim`s.
  * A unit-stride slice of columns (of entries, for a vector) read at an index is the operand at the shifted index.
  * A scalar constant spread over any shape reads as the constant's value.
-/
import Idealize.ShloMosaic.PureOps.Ideal.Laws
import Idealize.ShloMosaic.Lib.ValueIdx
import Idealize.ShloMosaic.Lib.Pipeline.Value

noncomputable section

open scoped BigOperators

namespace Cert.Lib.RowOps

open Idealize.ShloMosaic Idealize.ShloMosaic.ValueIdx

/-! ## Plain matrix products -/

/-- The contraction of a plain product at `(p, q)`, re-indexed by the contraction axis itself. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A kernel's plain product into the zero accumulator, at `(p, q)`. -/
theorem matmul_zero_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply]
  exact plain_sum M K N l r p q

/-- The host's plain `dot_general` at `(p, q)`. -/
theorem dotGeneral_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply]
  exact plain_sum M K N l r p q

/-! ## A vector spread over the rows -/

section Spread

variable {α : Type}

/-- Shape cast to one row, then broadcast over `M` rows. -/
theorem castRow_broadcast_apply (M N : Nat) (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix1 q) := by
  rw [broadcastTo_apply _ h2 (ix2 p q) (ix2 (0 : Fin 1) q) (fun a => by
    match a with
    | ⟨0, _⟩ => simp
    | ⟨1, _⟩ =>
      show q.val = if N = 1 then 0 else q.val
      split
      · have := q.isLt; omega
      · rfl)]
  rw [shapeCast_addUnit_apply ![N] b h1 (ix2 (0 : Fin 1) q)]
  exact congrArg b (funext fun a => by match a with | ⟨0, _⟩ => rfl)

/-- `broadcast_in_dim` to one row, then over `M` rows. -/
theorem bcastRow_bcast_apply (M N : Nat) (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => simp
    | ⟨1, _⟩ =>
      show q.val = if N = 1 then 0 else q.val
      split
      · have := q.isLt; omega
      · rfl)]
  rw [broadcastInDim_apply ![1] h1 b (ix2 (0 : Fin 1) q) (ix1 q) (fun a => by
    match a with
    | ⟨0, _⟩ =>
      show q.val = if N = 1 then 0 else q.val
      split
      · have := q.isLt; omega
      · rfl)]

/-! ## Slices -/

/-- Columns `o … o + N - 1` of an `M × N'` array. -/
theorem sliceCols_apply (M N' N o : Nat) (x : (⟨2, ![M, N']⟩ : Shape).Idx → α)
    (h : (⟨2, ![M, N']⟩ : Shape).Slices ![0, o] ⟨2, ![M, N]⟩) (p : Fin M) (q : Fin N) (hlt : o + q.val < N') :
    extractStridedSlice ⟨2, ![M, N]⟩ ![0, o] x h (ix2 p q) = x (ix2 p ⟨o + q.val, hlt⟩) :=
  extractStridedSlice_apply ![0, o] x h (ix2 p q) (ix2 p ⟨o + q.val, hlt⟩) (fun a => by
    match a with
    | ⟨0, _⟩ => show p.val = 0 + p.val; omega
    | ⟨1, _⟩ => rfl)

/-- Entries `o … o + N - 1` of a vector of length `N'`. -/
theorem sliceVec_apply (N' N o : Nat) (x : (⟨1, ![N']⟩ : Shape).Idx → α)
    (h : (⟨1, ![N']⟩ : Shape).Slices ![o] ⟨1, ![N]⟩) (q : Fin N) (hlt : o + q.val < N') :
    extractStridedSlice ⟨1, ![N]⟩ ![o] x h (ix1 q) = x (ix1 ⟨o + q.val, hlt⟩) :=
  extractStridedSlice_apply ![o] x h (ix1 q) (ix1 ⟨o + q.val, hlt⟩) (fun a => by
    match a with
    | ⟨0, _⟩ => rfl)

end Spread

/-! ## One-operand operations at an index (definitional at the ideal values) -/

section Pointwise

variable {s : Shape} {φ : FTy}

theorem hostDivf_apply (x y : FVec Ideal s φ) (i : s.Idx) : Host.divf x y i = Ideal.div (x i) (y i) := rfl
theorem hostExp_apply (x : FVec Ideal s φ) (i : s.Idx) : Host.exp x i = Ideal.exp (x i) := rfl
theorem hostNegf_apply (x : FVec Ideal s φ) (i : s.Idx) : Host.negf x i = -(x i) := rfl
theorem hostTanh_apply (x : FVec Ideal s φ) (i : s.Idx) : Host.tanh x i = Ideal.tanh (x i) := rfl
theorem tanh_apply (x : FVec Ideal s φ) (i : s.Idx) : tanh x i = Ideal.tanh (x i) := rfl
theorem logistic_apply (x : FVec Ideal s φ) (i : s.Idx) : logistic x i = Ideal.logistic (x i) := rfl

end Pointwise

/-! ## Scalar constants spread over a shape -/

/-- The host's `broadcast_in_dim` of a scalar constant. -/
theorem splat_apply {φ : FTy} (t : Shape) (h : (⟨0, ![]⟩ : Shape).BroadcastsInDim t ![]) (w : BitVec φ.bits) (i : t.Idx) :
    broadcastInDim t ![] h (constant (F := Ideal) ⟨0, ![]⟩ φ w) i = Ideal.ofBits φ w := by
  rw [broadcastInDim_apply ![] h _ i ix0 (fun a => a.elim0)]
  rfl

end Cert.Lib.RowOps

end
-- ==== Proof.Spec.lean ====
/-
  The graph network both programs compute, written once over the host's whole-array operations.

  For an edge list (src, dst) over 50000 nodes: the inverse square root of each node's out-degree and in-degree
  (a scatter-add of ones, clipped below at one), and a layer
      x ↦ relu( (A · ((x ⊙ dout) W)) ⊙ din + b ),
  where A sums, for every node, the rows gathered at the sources of its incoming edges.  Three layers are followed by
  relu(x3 + x2) Wfc + bfc.  The three dense pieces of a layer — the scaled product, the scaled shift with relu, the
  final product with bias — are named here and read at an index (p, q).
-/
import proofs.«175351_j60224031424524_1_alg».proof.Proof.Gen.ReferenceIdeal
import proofs.«175351_j60224031424524_1_alg».proof.Proof.LibRowOps
import Idealize.ShloMosaic.Lib.ValueIdx
import Idealize.ShloMosaic.Lib.Pipeline.Value
import Idealize.ShloMosaic.PureOps.Ideal.Laws

noncomputable section

open scoped BigOperators

namespace Cert.Spec

open Cert.ReferenceIdeal Cert.ReferenceIdeal.Gen Idealize.ShloMosaic Idealize.ShloMosaic.ValueIdx

/-- An edge list: one node number per edge. -/
abbrev Edges := (⟨S600000, .i32⟩ : BufTy).Contents (Elt Ideal)

/-- One per edge. -/
def ones : FVec Ideal S600000 .f32 := broadcastInDim S600000 ![] bcast_S_S600000 (constant (F := Ideal) S_ .f32 0x3F800000#32)

/-- Per node, the sum of the edge weights `u` over the edges naming it. -/
def degCount (idx : Edges) (u : FVec Ideal S600000 .f32) : FVec Ideal S50000 .f32 :=
  Host.scatterAdd (F := Ideal) scatter_S50000_S600000x1_S600000_n_0_0_1
    (broadcastInDim S50000 ![] bcast_S_S50000 (constant (F := Ideal) S_ .f32 0x00000000#32))
    (broadcastInDim S600000x1 ![0] bcast_S600000_S600000x1_0 idx) u

/-- Every entry raised to at least the scalar `k`. -/
def clipBelow (k : FVec Ideal S_ .f32) (x : FVec Ideal S50000 .f32) : FVec Ideal S50000 .f32 :=
  maximumf (broadcastInDim S50000 ![] bcast_S_S50000 (id k)) x

/-- The inverse square root of every node's degree (the number of edges naming it, at least one). -/
def degInv (idx : Edges) : FVec Ideal S50000 .f32 :=
  Host.rsqrt (F := Ideal) (maximumf (broadcastInDim S50000 ![] bcast_S_S50000 (id (constant (F := Ideal) S_ .f32 0x3F800000#32)))
    (Host.scatterAdd (F := Ideal) scatter_S50000_S600000x1_S600000_n_0_0_1
      (broadcastInDim S50000 ![] bcast_S_S50000 (constant (F := Ideal) S_ .f32 0x00000000#32))
      (broadcastInDim S600000x1 ![0] bcast_S600000_S600000x1_0 idx)
      (broadcastInDim S600000 ![] bcast_S_S600000 (constant (F := Ideal) S_ .f32 0x3F800000#32))))

/-- The degree factor in its three steps: count, clip below at one, inverse square root. -/
theorem degInv_eq (idx : Edges) :
    degInv idx = Host.rsqrt (F := Ideal) (clipBelow (constant (F := Ideal) S_ .f32 0x3F800000#32) (degCount idx ones)) := rfl

/-- A per-node vector as a one-column array. -/
def col (d : FVec Ideal S50000 .f32) : FVec Ideal S50000x1 .f32 :=
  broadcastInDim S50000x1 ![0] bcast_S50000_S50000x1_0 d

/-- A bias vector as a one-row array. -/
def row128 (b : FVec Ideal S128 .f32) : FVec Ideal S1x128 .f32 := broadcastInDim S1x128 ![1] bcast_S128_S1x128_1 b
def row41 (b : FVec Ideal S41 .f32) : FVec Ideal S1x41 .f32 := broadcastInDim S1x41 ![1] bcast_S41_S1x41_1 b

/-- Source node numbers with a negative number counted from the end. -/
def wrapIdx (src : Edges) : Edges :=
  select (cmpi .slt src (broadcastInDim S600000 ![] bcast_S_S600000 (constantI S_ 32 0#32)))
    (addi src (broadcastInDim S600000 ![] bcast_S_S600000 (constantI S_ 32 50000#32))) src

/-- Message passing: every node receives the sum of the rows of `h` at the sources of its incoming edges. -/
def agg (h : FVec Ideal S50000x128 .f32) (src dst : Edges) : FVec Ideal S50000x128 .f32 :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (Host.gather gather_S50000x128_S600000x1_S600000x128_1_0_n_n_0_1_1128 h
      (broadcastInDim S600000x1 ![0] bcast_S600000_S600000x1_0 (wrapIdx src)))

/-- Rows scaled by a column, then the dense product: 602 input features. -/
def scaledProd602 (x : FVec Ideal S50000x602 .f32) (s : FVec Ideal S50000x1 .f32) (w : FVec Ideal S602x128 .f32) :
    FVec Ideal S50000x128 .f32 :=
  Host.dotGeneral (F := Ideal) dot_S50000x602_S602x128_S50000x128_1_0_0_1_n_n none
    (mulf x (broadcastInDim S50000x602 ![0, 1] bcast_S50000x1_S50000x602_0_1 s)) w

/-- Rows scaled by a column, then the dense product: 128 input features. -/
def scaledProd128 (x : FVec Ideal S50000x128 .f32) (s : FVec Ideal S50000x1 .f32) (w : FVec Ideal S128x128 .f32) :
    FVec Ideal S50000x128 .f32 :=
  Host.dotGeneral (F := Ideal) dot_S50000x128_S128x128_S50000x128_1_0_0_1_n_n none
    (mulf x (broadcastInDim S50000x128 ![0, 1] bcast_S50000x1_S50000x128_0_1 s)) w

/-- Rows scaled by a column, a bias row added, negative entries cut to zero. -/
def scaleShiftRelu (a : FVec Ideal S50000x128 .f32) (s : FVec Ideal S50000x1 .f32) (b : FVec Ideal S1x128 .f32) :
    FVec Ideal S50000x128 .f32 :=
  maximumf (addf (mulf a (broadcastInDim S50000x128 ![0, 1] bcast_S50000x1_S50000x128_0_1 s))
      (broadcastInDim S50000x128 ![0, 1] bcast_S1x128_S50000x128_0_1 b))
    (broadcastInDim S50000x128 ![] bcast_S_S50000x128 (constant (F := Ideal) S_ .f32 0x00000000#32))

/-- relu of the sum of two feature arrays, the dense product with 41 output features, a bias row added. -/
def sumReluProd (x3 x2 : FVec Ideal S50000x128 .f32) (w : FVec Ideal S128x41 .f32) (b : FVec Ideal S1x41 .f32) :
    FVec Ideal S50000x41 .f32 :=
  addf (Host.dotGeneral (F := Ideal) dot_S50000x128_S128x41_S50000x41_1_0_0_1_n_n none
      (maximumf (addf x3 x2) (broadcastInDim S50000x128 ![] bcast_S_S50000x128 (constant (F := Ideal) S_ .f32 0x00000000#32))) w)
    (broadcastInDim S50000x41 ![0, 1] bcast_S1x41_S50000x41_0_1 b)

/-- One layer on 602 input features. -/
def layer602 (x : FVec Ideal S50000x602 .f32) (w : FVec Ideal S602x128 .f32) (b : FVec Ideal S128 .f32) (src dst : Edges) :
    FVec Ideal S50000x128 .f32 :=
  scaleShiftRelu (agg (scaledProd602 x (col (degInv src)) w) src dst) (col (degInv dst)) (row128 b)

/-- One layer on 128 input features. -/
def layer128 (x : FVec Ideal S50000x128 .f32) (w : FVec Ideal S128x128 .f32) (b : FVec Ideal S128 .f32) (src dst : Edges) :
    FVec Ideal S50000x128 .f32 :=
  scaleShiftRelu (agg (scaledProd128 x (col (degInv src)) w) src dst) (col (degInv dst)) (row128 b)

/-- The whole network. -/
def net (x : FVec Ideal S50000x602 .f32) (src dst : Edges) (w1 : FVec Ideal S602x128 .f32) (b1 : FVec Ideal S128 .f32)
    (w2 : FVec Ideal S128x128 .f32) (b2 : FVec Ideal S128 .f32) (w3 : FVec Ideal S128x128 .f32) (b3 : FVec Ideal S128 .f32)
    (wfc : FVec Ideal S128x41 .f32) (bfc : FVec Ideal S41 .f32) : FVec Ideal S50000x41 .f32 :=
  sumReluProd (layer128 (layer128 (layer602 x w1 b1 src dst) w2 b2 src dst) w3 b3 src dst)
    (layer128 (layer602 x w1 b1 src dst) w2 b2 src dst) wfc (row41 bfc)

/-! ## A reshape that only adds a unit axis is the matching broadcast -/

/-- A vector reshaped to one column is the vector broadcast to one column. -/
theorem castCol_eq (d : FVec Ideal S50000 .f32) (h : S50000.ShapeCasts S50000x1) : shapeCast S50000x1 d h = col d := by
  funext j
  obtain ⟨p, z, rfl⟩ : ∃ (p : Fin 50000) (z : Fin 1), j = ix2 p z := ⟨j 0, j 1, eq_ix2 j⟩
  obtain rfl : z = 0 := Subsingleton.elim _ _
  unfold col
  rw [shapeCast_apply d h (ix2 p (0 : Fin 1)) (ix1 p) (by
      rw [Shape.rowMajor_val_one, Shape.rowMajor_val_two]; show p.val = p.val * 1 + 0; omega),
    broadcastInDim_apply ![0] bcast_S50000_S50000x1_0 d (ix2 p (0 : Fin 1)) (ix1 p) (fun a => by
      match a with
      | ⟨0, _⟩ => rfl)]

/-- A vector reshaped to one row is the vector broadcast to one row: 128 entries. -/
theorem castRow128_eq (b : FVec Ideal S128 .f32) (h : S128.ShapeCasts S1x128) : shapeCast S1x128 b h = row128 b := by
  funext j
  obtain ⟨z, q, rfl⟩ : ∃ (z : Fin 1) (q : Fin 128), j = ix2 z q := ⟨j 0, j 1, eq_ix2 j⟩
  obtain rfl : z = 0 := Subsingleton.elim _ _
  unfold row128
  rw [shapeCast_addUnit_apply ![128] b h (ix2 (0 : Fin 1) q),
    broadcastInDim_apply ![1] bcast_S128_S1x128_1 b (ix2 (0 : Fin 1) q) (ix1 q) (fun a => by
      match a with
      | ⟨0, _⟩ => rfl)]
  exact congrArg b (funext fun a => by match a with | ⟨0, _⟩ => rfl)

/-- A vector reshaped to one row is the vector broadcast to one row: 41 entries. -/
theorem castRow41_eq (b : FVec Ideal S41 .f32) (h : S41.ShapeCasts S1x41) : shapeCast S1x41 b h = row41 b := by
  funext j
  obtain ⟨z, q, rfl⟩ : ∃ (z : Fin 1) (q : Fin 41), j = ix2 z q := ⟨j 0, j 1, eq_ix2 j⟩
  obtain rfl : z = 0 := Subsingleton.elim _ _
  unfold row41
  rw [shapeCast_addUnit_apply ![41] b h (ix2 (0 : Fin 1) q),
    broadcastInDim_apply ![1] bcast_S41_S1x41_1 b (ix2 (0 : Fin 1) q) (ix1 q) (fun a => by
      match a with
      | ⟨0, _⟩ => rfl)]
  exact congrArg b (funext fun a => by match a with | ⟨0, _⟩ => rfl)

/-! ## The dense pieces at an index -/

/-- A column spread over `K` columns, at `(p, k)`, is the column's entry of row `p`. -/
theorem spreadCol_apply (M K : Nat) {α : Type} (s : (⟨2, ![M, 1]⟩ : Shape).Idx → α)
    (h : (⟨2, ![M, 1]⟩ : Shape).BroadcastsInDim ⟨2, ![M, K]⟩ ![0, 1]) (p : Fin M) (k : Fin K) :
    broadcastInDim ⟨2, ![M, K]⟩ ![0, 1] h s (ix2 p k) = s (ix2 p (0 : Fin 1)) :=
  broadcastInDim_apply ![0, 1] h s (ix2 p k) (ix2 p (0 : Fin 1)) (fun a => by
    match a with
    | ⟨0, _⟩ =>
      show p.val = if M = 1 then 0 else p.val
      split
      · have := p.isLt; omega
      · rfl
    | ⟨1, _⟩ => simp)

/-- A row spread over `M` rows, at `(p, q)`, is the row's entry of column `q`. -/
theorem spreadRow_apply (M N : Nat) {α : Type} (b : (⟨2, ![1, N]⟩ : Shape).Idx → α)
    (h : (⟨2, ![1, N]⟩ : Shape).BroadcastsInDim ⟨2, ![M, N]⟩ ![0, 1]) (p : Fin M) (q : Fin N) :
    broadcastInDim ⟨2, ![M, N]⟩ ![0, 1] h b (ix2 p q) = b (ix2 (0 : Fin 1) q) :=
  broadcastInDim_apply ![0, 1] h b (ix2 p q) (ix2 (0 : Fin 1) q) (fun a => by
    match a with
    | ⟨0, _⟩ => simp
    | ⟨1, _⟩ =>
      show q.val = if N = 1 then 0 else q.val
      split
      · have := q.isLt; omega
      · rfl)

/-- The same column spread written as a trailing-axes broadcast. -/
theorem spreadColTo_apply (M K : Nat) {α : Type} (s : (⟨2, ![M, 1]⟩ : Shape).Idx → α)
    (h : (⟨2, ![M, 1]⟩ : Shape).Broadcasts ⟨2, ![M, K]⟩) (p : Fin M) (k : Fin K) :
    broadcastTo ⟨2, ![M, K]⟩ s h (ix2 p k) = s (ix2 p (0 : Fin 1)) :=
  broadcastTo_apply s h (ix2 p k) (ix2 p (0 : Fin 1)) (fun a => by
    match a with
    | ⟨0, _⟩ =>
      show p.val = if M = 1 then 0 else p.val
      split
      · have := p.isLt; omega
      · rfl
    | ⟨1, _⟩ => simp)

/-- The same row spread written as a trailing-axes broadcast. -/
theorem spreadRowTo_apply (M N : Nat) {α : Type} (b : (⟨2, ![1, N]⟩ : Shape).Idx → α)
    (h : (⟨2, ![1, N]⟩ : Shape).Broadcasts ⟨2, ![M, N]⟩) (p : Fin M) (q : Fin N) :
    broadcastTo ⟨2, ![M, N]⟩ b h (ix2 p q) = b (ix2 (0 : Fin 1) q) :=
  broadcastTo_apply b h (ix2 p q) (ix2 (0 : Fin 1) q) (fun a => by
    match a with
    | ⟨0, _⟩ => simp
    | ⟨1, _⟩ =>
      show q.val = if N = 1 then 0 else q.val
      split
      · have := q.isLt; omega
      · rfl)

/-- The zero constant spread over the feature array reads as zero. -/
theorem zeroSplat_apply (i : S50000x128.Idx) :
    broadcastInDim S50000x128 ![] bcast_S_S50000x128 (constant (F := Ideal) S_ .f32 0x00000000#32) i
      = Ideal.ofBits .f32 0x00000000#32 :=
  Cert.Lib.RowOps.splat_apply (φ := .f32) S50000x128 bcast_S_S50000x128 0x00000000#32 i

theorem scaledProd602_apply (x : FVec Ideal S50000x602 .f32) (s : FVec Ideal S50000x1 .f32) (w : FVec Ideal S602x128 .f32)
    (p : Fin 50000) (q : Fin 128) :
    scaledProd602 x s w (ix2 p q)
      = ∑ k : Fin 602, FloatOps.mulf (x (ix2 p k)) (s (ix2 p (0 : Fin 1))) * w (ix2 k q) := by
  unfold scaledProd602
  simp only [Host.dotGeneral]
  refine (Cert.Lib.RowOps.dotGeneral_apply 50000 602 128 none _ _ w p q).trans ?_
  refine Finset.sum_congr rfl fun k _ => ?_
  show FloatOps.mulf (x (ix2 p k)) (broadcastInDim S50000x602 ![0, 1] bcast_S50000x1_S50000x602_0_1 s (ix2 p k)) * _ = _
  rw [spreadCol_apply 50000 602 s bcast_S50000x1_S50000x602_0_1 p k]

theorem scaledProd128_apply (x : FVec Ideal S50000x128 .f32) (s : FVec Ideal S50000x1 .f32) (w : FVec Ideal S128x128 .f32)
    (p : Fin 50000) (q : Fin 128) :
    scaledProd128 x s w (ix2 p q)
      = ∑ k : Fin 128, FloatOps.mulf (x (ix2 p k)) (s (ix2 p (0 : Fin 1))) * w (ix2 k q) := by
  unfold scaledProd128
  simp only [Host.dotGeneral]
  refine (Cert.Lib.RowOps.dotGeneral_apply 50000 128 128 none _ _ w p q).trans ?_
  refine Finset.sum_congr rfl fun k _ => ?_
  show FloatOps.mulf (x (ix2 p k)) (broadcastInDim S50000x128 ![0, 1] bcast_S50000x1_S50000x128_0_1 s (ix2 p k)) * _ = _
  rw [spreadCol_apply 50000 128 s bcast_S50000x1_S50000x128_0_1 p k]

theorem scaleShiftRelu_apply (a : FVec Ideal S50000x128 .f32) (s : FVec Ideal S50000x1 .f32) (b : FVec Ideal S1x128 .f32)
    (p : Fin 50000) (q : Fin 128) :
    scaleShiftRelu a s b (ix2 p q)
      = FloatOps.maximumf (FloatOps.addf (FloatOps.mulf (a (ix2 p q)) (s (ix2 p (0 : Fin 1)))) (b (ix2 (0 : Fin 1) q)))
          (Ideal.ofBits .f32 0x00000000#32) := by
  unfold scaleShiftRelu
  show FloatOps.maximumf (FloatOps.addf (FloatOps.mulf (a (ix2 p q))
      (broadcastInDim S50000x128 ![0, 1] bcast_S50000x1_S50000x128_0_1 s (ix2 p q)))
      (broadcastInDim S50000x128 ![0, 1] bcast_S1x128_S50000x128_0_1 b (ix2 p q)))
      (broadcastInDim S50000x128 ![] bcast_S_S50000x128 (constant (F := Ideal) S_ .f32 0x00000000#32) (ix2 p q)) = _
  rw [spreadCol_apply 50000 128 s bcast_S50000x1_S50000x128_0_1 p q,
    spreadRow_apply 50000 128 b bcast_S1x128_S50000x128_0_1 p q,
    zeroSplat_apply (ix2 p q)]

theorem sumReluProd_apply (x3 x2 : FVec Ideal S50000x128 .f32) (w : FVec Ideal S128x41 .f32) (b : FVec Ideal S1x41 .f32)
    (p : Fin 50000) (q : Fin 41) :
    sumReluProd x3 x2 w b (ix2 p q)
      = FloatOps.addf (∑ k : Fin 128, FloatOps.maximumf (FloatOps.addf (x3 (ix2 p k)) (x2 (ix2 p k)))
            (Ideal.ofBits .f32 0x00000000#32) * w (ix2 k q)) (b (ix2 (0 : Fin 1) q)) := by
  unfold sumReluProd
  show FloatOps.addf (Host.dotGeneral (F := Ideal) dot_S50000x128_S128x41_S50000x41_1_0_0_1_n_n none _ w (ix2 p q))
      (broadcastInDim S50000x41 ![0, 1] bcast_S1x41_S50000x41_0_1 b (ix2 p q)) = _
  rw [spreadRow_apply 50000 41 b bcast_S1x41_S50000x41_0_1 p q]
  simp only [Host.dotGeneral]
  refine congrArg (fun z => FloatOps.addf z (b (ix2 (0 : Fin 1) q))) ?_
  refine (Cert.Lib.RowOps.dotGeneral_apply 50000 128 41 none _ _ w p q).trans ?_
  refine Finset.sum_congr rfl fun k _ => ?_
  show FloatOps.maximumf (FloatOps.addf (x3 (ix2 p k)) (x2 (ix2 p k)))
      (broadcastInDim S50000x128 ![] bcast_S_S50000x128 (constant (F := Ideal) S_ .f32 0x00000000#32) (ix2 p k)) * _ = _
  rw [zeroSplat_apply (ix2 p k)]

end Cert.Spec

end
-- ==== Proof.HostSteps.lean ====
/-
  The host operations between the pallas_calls, stretch by stretch, over any contents of the buffers.

  Before the first call: the inverse square roots of the out- and in-degrees (a scatter-add of ones over the edge list,
  clipped below at one), and the first as a column.  Between a scaled product and the scaled shift of a layer: the
  message passing (gather the rows at the edges' sources, scatter-add them at the edges' targets), the in-degree factors as
  a column and the bias as a row.  Before every later scaled product: the out-degree factors as a column.  Before the
  last call: the last bias as a row.  Each is read here as the specification's function of the buffers it reads.
-/
import proofs.«175351_j60224031424524_1_alg».proof.Proof.Gen.KernelIdeal.Launch
import proofs.«175351_j60224031424524_1_alg».proof.Proof.Spec
import Idealize.ShloMosaic.Lib.StableHlo.Run

noncomputable section

namespace Cert.KernelIdeal.HostSteps

open Cert.KernelIdeal Cert.KernelIdeal.Gen Idealize.ShloMosaic Idealize.ShloMosaic.TcCoe Idealize.SL.Sem
open Idealize.ShloMosaic.StableHlo

/-- No operation of a stretch writes the buffer (decided operation by operation). -/
macro "kept" : tactic => `(tactic|
  exact List.forall_iff_forall_mem.mp (by
    simp only [hostOps0, hostOps0_1, hostOps0_2, hostOps0_3, hostOps0_4, hostOps1, hostOps2, hostOps3, hostOps4, hostOps5, hostOps6,
      List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- A buffer that no operation of a stretch writes keeps its contents. -/
macro "keeps" : tactic => `(tactic| exact StableHlo.after_of_forall_not_mem _ _ (by kept))

variable (W : Valuation τ sig (Elt Ideal))

/-! ## Before the first call: the degree factors -/

/-- The out-degree counts: ones scattered at the edges' sources. -/
theorem s00_v3 : (after hostOps0 W (Proc.devRef .tc main_v3) : FVec Ideal S50000 .f32)
    = Cert.Spec.degCount (W (Proc.devRef .tc main_arg1)) Cert.Spec.ones := by
  dsimp only [hostOps0]
  after_results <;> rfl

theorem s00_v0 : (after hostOps0 W (Proc.devRef .tc main_v0) : FVec Ideal S600000 .f32) = Cert.Spec.ones := by
  dsimp only [hostOps0]
  after_results <;> rfl

theorem s00_cst1 : (after hostOps0 W (Proc.devRef .tc main_cst_1) : FVec Ideal S_ .f32)
    = constant (F := Ideal) S_ .f32 0x3F800000#32 := by
  dsimp only [hostOps0]
  after_results <;> rfl

/-- The clip below at one. -/
theorem s01_v4 : (after hostOps0_1 W (Proc.devRef .tc main_v4) : FVec Ideal S50000 .f32)
    = Cert.Spec.clipBelow (W (Proc.devRef .tc main_cst_1)) (W (Proc.devRef .tc main_v3)) := by
  dsimp only [hostOps0_1]
  after_results <;> rfl

/-- The in-degree counts: the same ones scattered at the edges' targets. -/
theorem s02_v7 : (after hostOps0_2 W (Proc.devRef .tc main_v7) : FVec Ideal S50000 .f32)
    = Cert.Spec.degCount (W (Proc.devRef .tc main_arg2)) (W (Proc.devRef .tc main_v0)) := by
  dsimp only [hostOps0_2]
  after_results <;> rfl

theorem s02_cst3 : (after hostOps0_2 W (Proc.devRef .tc main_cst_3) : FVec Ideal S_ .f32)
    = constant (F := Ideal) S_ .f32 0x3F800000#32 := by
  dsimp only [hostOps0_2]
  after_results <;> rfl

theorem s03_v8 : (after hostOps0_3 W (Proc.devRef .tc main_v8) : FVec Ideal S50000 .f32)
    = Cert.Spec.clipBelow (W (Proc.devRef .tc main_cst_3)) (W (Proc.devRef .tc main_v7)) := by
  dsimp only [hostOps0_3]
  after_results <;> rfl

theorem s04_v9 : (after hostOps0_4 W (Proc.devRef .tc main_v9) : FVec Ideal S50000 .f32)
    = (Host.rsqrt (F := Ideal) (φ := .f32) (W (Proc.devRef .tc main_v4)) : FVec Ideal S50000 .f32) := by
  dsimp only [hostOps0_4]
  after_results <;> rfl

theorem s04_v10 : (after hostOps0_4 W (Proc.devRef .tc main_v10) : FVec Ideal S50000 .f32)
    = (Host.rsqrt (F := Ideal) (φ := .f32) (W (Proc.devRef .tc main_v8)) : FVec Ideal S50000 .f32) := by
  dsimp only [hostOps0_4]
  after_results <;> rfl

theorem s04_v11 : (after hostOps0_4 W (Proc.devRef .tc main_v11) : FVec Ideal S50000x1 .f32)
    = Cert.Spec.col (Host.rsqrt (F := Ideal) (φ := .f32) (W (Proc.devRef .tc main_v4))) := by
  dsimp only [hostOps0_4]
  after_results
  show shapeCast S50000x1 (Host.rsqrt (F := Ideal) (φ := .f32) (W (Proc.devRef .tc main_v4)) : FVec Ideal S50000 .f32) shapeCasts_S50000_S50000x1 = _
  exact Cert.Spec.castCol_eq _ _

/-! ## Inside the first layer -/

set_option maxHeartbeats 1000000 in
theorem s1_v22 : (after hostOps1 W (Proc.devRef .tc main_v22) : FVec Ideal S50000x128 .f32)
    = Cert.Spec.agg (W (Proc.devRef .tc main_v12)) (W (Proc.devRef .tc main_arg1)) (W (Proc.devRef .tc main_arg2)) := by
  dsimp only [hostOps1]
  after_results <;> rfl

theorem s1_v23 : (after hostOps1 W (Proc.devRef .tc main_v23) : FVec Ideal S50000x1 .f32)
    = Cert.Spec.col (W (Proc.devRef .tc main_v10)) := by
  dsimp only [hostOps1]
  after_results
  show shapeCast S50000x1 (W (Proc.devRef .tc main_v10) : FVec Ideal S50000 .f32) shapeCasts_S50000_S50000x1 = _
  exact Cert.Spec.castCol_eq _ _

theorem s1_v24 : (after hostOps1 W (Proc.devRef .tc main_v24) : FVec Ideal S1x128 .f32)
    = Cert.Spec.row128 (W (Proc.devRef .tc main_arg4)) := by
  dsimp only [hostOps1]
  after_results
  show shapeCast S1x128 (W (Proc.devRef .tc main_arg4) : FVec Ideal S128 .f32) shapeCasts_S128_S1x128 = _
  exact Cert.Spec.castRow128_eq _ _

/-! ## Before the second layer's product -/

theorem s2_v26 : (after hostOps2 W (Proc.devRef .tc main_v26) : FVec Ideal S50000x1 .f32)
    = Cert.Spec.col (W (Proc.devRef .tc main_v9)) := by
  dsimp only [hostOps2]
  after_results
  show shapeCast S50000x1 (W (Proc.devRef .tc main_v9) : FVec Ideal S50000 .f32) shapeCasts_S50000_S50000x1 = _
  exact Cert.Spec.castCol_eq _ _

/-! ## Inside the second layer -/

set_option maxHeartbeats 1000000 in
theorem s3_v37 : (after hostOps3 W (Proc.devRef .tc main_v37) : FVec Ideal S50000x128 .f32)
    = Cert.Spec.agg (W (Proc.devRef .tc main_v27)) (W (Proc.devRef .tc main_arg1)) (W (Proc.devRef .tc main_arg2)) := by
  dsimp only [hostOps3]
  after_results <;> rfl

theorem s3_v38 : (after hostOps3 W (Proc.devRef .tc main_v38) : FVec Ideal S50000x1 .f32)
    = Cert.Spec.col (W (Proc.devRef .tc main_v10)) := by
  dsimp only [hostOps3]
  after_results
  show shapeCast S50000x1 (W (Proc.devRef .tc main_v10) : FVec Ideal S50000 .f32) shapeCasts_S50000_S50000x1 = _
  exact Cert.Spec.castCol_eq _ _

theorem s3_v39 : (after hostOps3 W (Proc.devRef .tc main_v39) : FVec Ideal S1x128 .f32)
    = Cert.Spec.row128 (W (Proc.devRef .tc main_arg6)) := by
  dsimp only [hostOps3]
  after_results
  show shapeCast S1x128 (W (Proc.devRef .tc main_arg6) : FVec Ideal S128 .f32) shapeCasts_S128_S1x128 = _
  exact Cert.Spec.castRow128_eq _ _

/-! ## Before the third layer's product -/

theorem s4_v41 : (after hostOps4 W (Proc.devRef .tc main_v41) : FVec Ideal S50000x1 .f32)
    = Cert.Spec.col (W (Proc.devRef .tc main_v9)) := by
  dsimp only [hostOps4]
  after_results
  show shapeCast S50000x1 (W (Proc.devRef .tc main_v9) : FVec Ideal S50000 .f32) shapeCasts_S50000_S50000x1 = _
  exact Cert.Spec.castCol_eq _ _

/-! ## Inside the third layer -/

set_option maxHeartbeats 1000000 in
theorem s5_v52 : (after hostOps5 W (Proc.devRef .tc main_v52) : FVec Ideal S50000x128 .f32)
    = Cert.Spec.agg (W (Proc.devRef .tc main_v42)) (W (Proc.devRef .tc main_arg1)) (W (Proc.devRef .tc main_arg2)) := by
  dsimp only [hostOps5]
  after_results <;> rfl

theorem s5_v53 : (after hostOps5 W (Proc.devRef .tc main_v53) : FVec Ideal S50000x1 .f32)
    = Cert.Spec.col (W (Proc.devRef .tc main_v10)) := by
  dsimp only [hostOps5]
  after_results
  show shapeCast S50000x1 (W (Proc.devRef .tc main_v10) : FVec Ideal S50000 .f32) shapeCasts_S50000_S50000x1 = _
  exact Cert.Spec.castCol_eq _ _

theorem s5_v54 : (after hostOps5 W (Proc.devRef .tc main_v54) : FVec Ideal S1x128 .f32)
    = Cert.Spec.row128 (W (Proc.devRef .tc main_arg8)) := by
  dsimp only [hostOps5]
  after_results
  show shapeCast S1x128 (W (Proc.devRef .tc main_arg8) : FVec Ideal S128 .f32) shapeCasts_S128_S1x128 = _
  exact Cert.Spec.castRow128_eq _ _

/-! ## Before the last call -/

theorem s6_v56 : (after hostOps6 W (Proc.devRef .tc main_v56) : FVec Ideal S1x41 .f32)
    = Cert.Spec.row41 (W (Proc.devRef .tc main_arg10)) := by
  dsimp only [hostOps6]
  after_results
  show shapeCast S1x41 (W (Proc.devRef .tc main_arg10) : FVec Ideal S41 .f32) shapeCasts_S41_S1x41 = _
  exact Cert.Spec.castRow41_eq _ _

end Cert.KernelIdeal.HostSteps

end
-- ==== Proof.Region0.lean ====
/-
  The first pallas_call (rows scaled by a column, then the dense product, 602 input features), as one function of the
  arrays it finds.

  The grid has 25 points; point t works on rows 2000 t … 2000 t + 1999: it multiplies each row of its block of x by that
  row's entry of the column s, and takes the product with the whole of w.  So entry (p, q) of the block it writes back is
  the sum over k of (x[2000 t + p, k] · s[2000 t + p, 0]) · w[k, q], which is entry (2000 t + p, q) of the whole-array
  product; the 25 blocks tile the 50000 rows, so the result array ends at the whole-array product.
-/
import proofs.«175351_j60224031424524_1_alg».proof.Proof.Gen.KernelIdeal.Frame
import proofs.«175351_j60224031424524_1_alg».proof.Proof.Spec
import Idealize.ShloMosaic.Lib.Pipeline.Value

noncomputable section

open scoped BigOperators

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q): the row of the first block scaled by the column's entry, times column q of the third. -/
theorem pay_apply (x0 : FVec Ideal S2000x602 .f32) (x1 : FVec Ideal S2000x1 .f32) (x3 : FVec Ideal S602x128 .f32)
    (p : Fin 2000) (q : Fin 128) :
    k0_pay1 x0 x1 x3 (ix2 p q)
      = ∑ k : Fin 602, FloatOps.mulf (x0 (ix2 p k)) (x1 (ix2 p (0 : Fin 1))) * x3 (ix2 k q) := by
  unfold k0_pay1
  refine (Cert.Lib.RowOps.matmul_zero_apply 2000 602 128 none _ _ p q).trans ?_
  refine Finset.sum_congr rfl fun k _ => ?_
  show FloatOps.mulf (x0 (ix2 p k))
      (broadcastTo S2000x602 (shapeCast S2000x1 x1 shapeCasts_S2000x1_S2000x1) broadcasts_S2000x1_S2000x602 (ix2 p k)) * x3 (ix2 k q) = _
  rw [shapeCast_self, Cert.Spec.spreadColTo_apply 2000 602 x1 broadcasts_S2000x1_S2000x602 p k]

/-- Where each window's block sits at point t: the row blocks move with t, the weights stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The block of x at point t is rows 2000 t … of x. -/
theorem blk_x (c : Dev nD) (t : Fin cfg0.N) (p : Fin 2000) (k : Fin 602) (P : Fin 50000) (hP : P.val = t.val * 2000 + p.val) :
    (iblk0 V c 0 t : FVec Ideal S2000x602 .f32) (ix2 p k) = (V c main_arg0 : S50000x602.Idx → EReal) (ix2 P k) := by
  unfold iblk0
  rw [View.read_apply]
  show (V c main_arg0 : S50000x602.Idx → EReal) _ = _
  refine congrArg _ (funext fun a => Fin.ext ?_)
  obtain ⟨e0, e1, -⟩ := idx_facts t
  match a with
  | ⟨0, _⟩ => show win0_0.index t (0 : Fin 2) * 2000 + 1 * p.val = P.val; omega
  | ⟨1, _⟩ => show win0_0.index t (1 : Fin 2) * 602 + 1 * k.val = k.val; omega

/-- The block of the column at point t is rows 2000 t … of the column. -/
theorem blk_s (c : Dev nD) (t : Fin cfg0.N) (p : Fin 2000) (P : Fin 50000) (hP : P.val = t.val * 2000 + p.val) :
    (iblk0 V c 1 t : FVec Ideal S2000x1 .f32) (ix2 p (0 : Fin 1)) = (V c main_v11 : S50000x1.Idx → EReal) (ix2 P (0 : Fin 1)) := by
  unfold iblk0
  rw [View.read_apply]
  show (V c main_v11 : S50000x1.Idx → EReal) _ = _
  refine congrArg _ (funext fun a => Fin.ext ?_)
  obtain ⟨-, -, e2, e3, -⟩ := idx_facts t
  match a with
  | ⟨0, _⟩ => show win0_1.index t (0 : Fin 2) * 2000 + 1 * p.val = P.val; omega
  | ⟨1, _⟩ => show win0_1.index t (1 : Fin 2) * 1 + 1 * (0 : Fin 1).val = (0 : Fin 1).val; omega

/-- The block of the weights is the whole of the weights at every point. -/
theorem blk_w (c : Dev nD) (t : Fin cfg0.N) (k : Fin 602) (q : Fin 128) :
    (iblk0 V c 2 t : FVec Ideal S602x128 .f32) (ix2 k q) = (V c main_arg3 : S602x128.Idx → EReal) (ix2 k q) := by
  unfold iblk0
  rw [View.read_apply]
  show (V c main_arg3 : S602x128.Idx → EReal) _ = _
  refine congrArg _ (funext fun a => Fin.ext ?_)
  obtain ⟨-, -, -, -, e4, e5, -⟩ := idx_facts t
  match a with
  | ⟨0, _⟩ => show win0_2.index t (0 : Fin 2) * 602 + 1 * k.val = k.val; omega
  | ⟨1, _⟩ => show win0_2.index t (1 : Fin 2) * 128 + 1 * q.val = q.val; omega

/-- What point t writes back is block t of the whole-array scaled product. -/
theorem flushed_eq (c : Dev nD) (t : Fin cfg0.N) :
    (dat0 V c).flushed 3 t = ((cfg0.win 3).blk t).view.read (Elt Ideal)
      (Cert.Spec.scaledProd602 (V c main_arg0) (V c main_v11) (V c main_arg3)) := by
  show (cfg0.win 3).cut (grid0.coords t) ((dat0 V c).after 3 t) = _
  rw [after0_3]
  unfold out0_3
  rw [View.canon_unit_zero hz]
  simp only [View.ld_unit_zero (S := S2000x602) hz, View.ld_unit_zero (S := S2000x1) hz, View.ld_unit_zero (S := S602x128) hz]
  funext j
  obtain ⟨p, q, rfl⟩ : ∃ (p : Fin 2000) (q : Fin 128), j = ix2 p q := ⟨j 0, j 1, eq_ix2 j⟩
  have hN : cfg0.N = 25 := N_0
  have ht : t.val < 25 := hN ▸ t.isLt
  have hp : t.val * 2000 + p.val < 50000 := by have := p.isLt; omega
  obtain ⟨-, -, -, -, -, -, e6, e7⟩ := idx_facts t
  have hemb : ((cfg0.win 3).blk t).view.emb (ix2 p q) = (ix2 (⟨t.val * 2000 + p.val, hp⟩ : Fin 50000) q : S50000x128.Idx) := by
    funext a; apply Fin.ext
    match a with
    | ⟨0, _⟩ => show win0_3.index t (0 : Fin 2) * 2000 + 1 * p.val = t.val * 2000 + p.val; omega
    | ⟨1, _⟩ => show win0_3.index t (1 : Fin 2) * 128 + 1 * q.val = q.val; omega
  rw [View.read_apply, hemb, Cert.Spec.scaledProd602_apply]
  refine (pay_apply (iblk0 V c 0 t) (iblk0 V c 1 t) (iblk0 V c 2 t) p q).trans ?_
  refine Finset.sum_congr rfl fun k _ => ?_
  rw [blk_x V c t p k ⟨t.val * 2000 + p.val, hp⟩ rfl, blk_s V c t p ⟨t.val * 2000 + p.val, hp⟩ rfl, blk_w V c t k q]

/-- Every row of the result array lies in the block of the point its row number divided by 2000 names. -/
theorem cover (i : S50000x128.Idx) :
    ∃ t : Fin cfg0.N, (cfg0.win 3).flush t = true ∧ i ∈ ((cfg0.win 3).blk t).view.set := by
  have hN : cfg0.N = 25 := N_0
  have h0 : (i 0).val < 50000 := (i 0).isLt
  have h1 : (i 1).val < 128 := (i 1).isLt
  obtain ⟨t, ht⟩ : ∃ t : Fin cfg0.N, t.val = (i 0).val / 2000 := ⟨⟨(i 0).val / 2000, by rw [hN]; omega⟩, rfl⟩
  obtain ⟨-, -, -, -, -, -, e6, e7⟩ := idx_facts t
  refine ⟨t, flush0_3 t, ?_⟩
  show i ∈ ((View.whole main_v12).slice (win0_3.rect t)).set
  rw [View.set_slice_whole, Rect.mem_set_unit]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 128 ≤ (i 1).val ∧ (i 1).val < win0_3.index t (1 : Fin 2) * 128 + 128
    omega

/-- The result array after the region: the whole-array scaled product of the arrays the region found. -/
theorem final (c : Dev nD) :
    (dat0 V c).arrAt 3 cfg0.N = Cert.Spec.scaledProd602 (V c main_arg0) (V c main_v11) (V c main_arg3) :=
  (dat0 V c).arrAt_eq_of_cover 3 _ (fun t _ => flushed_eq V c t) cover

end Cert.KernelIdeal.Region0

end
-- ==== Proof.Region1.lean ====
/-
  The second pallas_call (rows scaled by a column, a bias row added, negative entries cut to zero), as one function of the
  arrays it finds.

  The grid has 25 points; point t works on rows 2000 t … 2000 t + 1999: entry (p, q) of the block it writes back is
  max(a[2000 t + p, q] · s[2000 t + p, 0] + b[0, q], 0), which is entry (2000 t + p, q) of the whole-array function; the
  25 blocks tile the 50000 rows, so the result array ends at the whole-array function.
-/
import proofs.«175351_j60224031424524_1_alg».proof.Proof.Gen.KernelIdeal.Frame
import proofs.«175351_j60224031424524_1_alg».proof.Proof.Spec
import Idealize.ShloMosaic.Lib.Pipeline.Value

noncomputable section

open scoped BigOperators

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q): the entry scaled by its row's entry of the column, the bias of column q added, cut at zero. -/
theorem pay_apply (x0 : FVec Ideal S2000x128 .f32) (x1 : FVec Ideal S2000x1 .f32) (x4 : FVec Ideal S1x128 .f32)
    (p : Fin 2000) (q : Fin 128) :
    k1_pay1 x0 x1 x4 (ix2 p q)
      = FloatOps.maximumf (FloatOps.addf (FloatOps.mulf (x0 (ix2 p q)) (x1 (ix2 p (0 : Fin 1)))) (x4 (ix2 (0 : Fin 1) q)))
          (Ideal.ofBits .f32 0x00000000#32) := by
  unfold k1_pay1
  show FloatOps.maximumf (FloatOps.addf (FloatOps.mulf (shapeCast S2000x128 x0 shapeCasts_S2000x128_S2000x128 (ix2 p q))
        (broadcastTo S2000x128 (shapeCast S2000x1 x1 shapeCasts_S2000x1_S2000x1) broadcasts_S2000x1_S2000x128 (ix2 p q)))
      (broadcastTo S2000x128 (shapeCast S1x128 x4 shapeCasts_S1x128_S1x128) broadcasts_S1x128_S2000x128 (ix2 p q)))
      (Scalar.ofBits (F := Ideal) .f32 0x00000000#32) = _
  rw [shapeCast_self, shapeCast_self, shapeCast_self, Cert.Spec.spreadColTo_apply 2000 128 x1 broadcasts_S2000x1_S2000x128 p q,
    Cert.Spec.spreadRowTo_apply 2000 128 x4 broadcasts_S1x128_S2000x128 p q]
  rfl

/-- Where each window's block sits at point t: the row blocks move with t, the bias row stays. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The block of a at point t is rows 2000 t … of a. -/
theorem blk_a (c : Dev nD) (t : Fin cfg1.N) (p : Fin 2000) (q : Fin 128) (P : Fin 50000) (hP : P.val = t.val * 2000 + p.val) :
    (iblk1 V c 0 t : FVec Ideal S2000x128 .f32) (ix2 p q) = (V c main_v22 : S50000x128.Idx → EReal) (ix2 P q) := by
  unfold iblk1
  rw [View.read_apply]
  show (V c main_v22 : S50000x128.Idx → EReal) _ = _
  refine congrArg _ (funext fun a => Fin.ext ?_)
  obtain ⟨e0, e1, -⟩ := idx_facts t
  match a with
  | ⟨0, _⟩ => show win1_0.index t (0 : Fin 2) * 2000 + 1 * p.val = P.val; omega
  | ⟨1, _⟩ => show win1_0.index t (1 : Fin 2) * 128 + 1 * q.val = q.val; omega

/-- The block of the column at point t is rows 2000 t … of the column. -/
theorem blk_s (c : Dev nD) (t : Fin cfg1.N) (p : Fin 2000) (P : Fin 50000) (hP : P.val = t.val * 2000 + p.val) :
    (iblk1 V c 1 t : FVec Ideal S2000x1 .f32) (ix2 p (0 : Fin 1)) = (V c main_v23 : S50000x1.Idx → EReal) (ix2 P (0 : Fin 1)) := by
  unfold iblk1
  rw [View.read_apply]
  show (V c main_v23 : S50000x1.Idx → EReal) _ = _
  refine congrArg _ (funext fun a => Fin.ext ?_)
  obtain ⟨-, -, e2, e3, -⟩ := idx_facts t
  match a with
  | ⟨0, _⟩ => show win1_1.index t (0 : Fin 2) * 2000 + 1 * p.val = P.val; omega
  | ⟨1, _⟩ => show win1_1.index t (1 : Fin 2) * 1 + 1 * (0 : Fin 1).val = (0 : Fin 1).val; omega

/-- The block of the bias row is the whole row at every point. -/
theorem blk_b (c : Dev nD) (t : Fin cfg1.N) (q : Fin 128) :
    (iblk1 V c 2 t : FVec Ideal S1x128 .f32) (ix2 (0 : Fin 1) q) = (V c main_v24 : S1x128.Idx → EReal) (ix2 (0 : Fin 1) q) := by
  unfold iblk1
  rw [View.read_apply]
  show (V c main_v24 : S1x128.Idx → EReal) _ = _
  refine congrArg _ (funext fun a => Fin.ext ?_)
  obtain ⟨-, -, -, -, e4, e5, -⟩ := idx_facts t
  match a with
  | ⟨0, _⟩ => show win1_2.index t (0 : Fin 2) * 1 + 1 * (0 : Fin 1).val = (0 : Fin 1).val; omega
  | ⟨1, _⟩ => show win1_2.index t (1 : Fin 2) * 128 + 1 * q.val = q.val; omega

/-- What point t writes back is block t of the whole-array function. -/
theorem flushed_eq (c : Dev nD) (t : Fin cfg1.N) :
    (dat1 V c).flushed 3 t = ((cfg1.win 3).blk t).view.read (Elt Ideal)
      (Cert.Spec.scaleShiftRelu (V c main_v22) (V c main_v23) (V c main_v24)) := by
  show (cfg1.win 3).cut (grid1.coords t) ((dat1 V c).after 3 t) = _
  rw [after1_3]
  unfold out1_3
  rw [View.canon_unit_zero hz]
  simp only [View.ld_unit_zero (S := S2000x128) hz, View.ld_unit_zero (S := S2000x1) hz, View.ld_unit_zero (S := S1x128) hz]
  funext j
  obtain ⟨p, q, rfl⟩ : ∃ (p : Fin 2000) (q : Fin 128), j = ix2 p q := ⟨j 0, j 1, eq_ix2 j⟩
  have hN : cfg1.N = 25 := N_1
  have ht : t.val < 25 := hN ▸ t.isLt
  have hp : t.val * 2000 + p.val < 50000 := by have := p.isLt; omega
  obtain ⟨-, -, -, -, -, -, e6, e7⟩ := idx_facts t
  have hemb : ((cfg1.win 3).blk t).view.emb (ix2 p q) = (ix2 (⟨t.val * 2000 + p.val, hp⟩ : Fin 50000) q : S50000x128.Idx) := by
    funext a; apply Fin.ext
    match a with
    | ⟨0, _⟩ => show win1_3.index t (0 : Fin 2) * 2000 + 1 * p.val = t.val * 2000 + p.val; omega
    | ⟨1, _⟩ => show win1_3.index t (1 : Fin 2) * 128 + 1 * q.val = q.val; omega
  rw [View.read_apply, hemb, Cert.Spec.scaleShiftRelu_apply]
  refine (pay_apply (iblk1 V c 0 t) (iblk1 V c 1 t) (iblk1 V c 2 t) p q).trans ?_
  rw [blk_a V c t p q ⟨t.val * 2000 + p.val, hp⟩ rfl, blk_s V c t p ⟨t.val * 2000 + p.val, hp⟩ rfl, blk_b V c t q]
  rfl

/-- Every row of the result array lies in the block of the point its row number divided by 2000 names. -/
theorem cover (i : S50000x128.Idx) :
    ∃ t : Fin cfg1.N, (cfg1.win 3).flush t = true ∧ i ∈ ((cfg1.win 3).blk t).view.set := by
  have hN : cfg1.N = 25 := N_1
  have h0 : (i 0).val < 50000 := (i 0).isLt
  have h1 : (i 1).val < 128 := (i 1).isLt
  obtain ⟨t, ht⟩ : ∃ t : Fin cfg1.N, t.val = (i 0).val / 2000 := ⟨⟨(i 0).val / 2000, by rw [hN]; omega⟩, rfl⟩
  obtain ⟨-, -, -, -, -, -, e6, e7⟩ := idx_facts t
  refine ⟨t, flush1_3 t, ?_⟩
  show i ∈ ((View.whole main_v25).slice (win1_3.rect t)).set
  rw [View.set_slice_whole, Rect.mem_set_unit]
  intro a
  match a with
  | ⟨0, _⟩ =>
    show win1_3.index t (0 : Fin 2) * 2000 ≤ (i 0).val ∧ (i 0).val < win1_3.index t (0 : Fin 2) * 2000 + 2000
    omega
  | ⟨1, _⟩ =>
    show win1_3.index t (1 : Fin 2) * 128 ≤ (i 1).val ∧ (i 1).val < win1_3.index t (1 : Fin 2) * 128 + 128
    omega

/-- The result array after the region: the whole-array function of the arrays the region found. -/
theorem final (c : Dev nD) :
    (dat1 V c).arrAt 3 cfg1.N = Cert.Spec.scaleShiftRelu (V c main_v22) (V c main_v23) (V c main_v24) :=
  (dat1 V c).arrAt_eq_of_cover 3 _ (fun t _ => flushed_eq V c t) cover

end Cert.KernelIdeal.Region1

end
-- ==== Proof.Region2.lean ====
/-
  The third pallas_call (rows scaled by a column, then the dense product, 128 input features), as one function of the
  arrays it finds.

  The grid has 25 points; point t works on rows 2000 t … 2000 t + 1999: it multiplies each row of its block of x by that
  row's entry of the column s, and takes the product with the whole of w.  So entry (p, q) of the block it writes back is
  the sum over k of (x[2000 t + p, k] · s[2000 t + p, 0]) · w[k, q], which is entry (2000 t + p, q) of the whole-array
  product; the 25 blocks tile the 50000 rows, so the result array ends at the whole-array product.
-/
import proofs.«175351_j60224031424524_1_alg».proof.Proof.Gen.KernelIdeal.Frame
import proofs.«175351_j60224031424524_1_alg».proof.Proof.Spec
import Idealize.ShloMosaic.Lib.Pipeline.Value

noncomputable section

open scoped BigOperators

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q): the row of the first block scaled by the column's entry, times column q of the third. -/
theorem pay_apply (x0 : FVec Ideal S2000x128 .f32) (x1 : FVec Ideal S2000x1 .f32) (x3 : FVec Ideal S128x128 .f32)
    (p : Fin 2000) (q : Fin 128) :
    k2_pay1 x0 x1 x3 (ix2 p q)
      = ∑ k : Fin 128, FloatOps.mulf (x0 (ix2 p k)) (x1 (ix2 p (0 : Fin 1))) * x3 (ix2 k q) := by
  unfold k2_pay1
  refine (Cert.Lib.RowOps.matmul_zero_apply 2000 128 128 none _ _ p q).trans ?_
  refine Finset.sum_congr rfl fun k _ => ?_
  show FloatOps.mulf (shapeCast S2000x128 x0 shapeCasts_S2000x128_S2000x128 (ix2 p k))
      (broadcastTo S2000x128 (shapeCast S2000x1 x1 shapeCasts_S2000x1_S2000x1) broadcasts_S2000x1_S2000x128 (ix2 p k)) * x3 (ix2 k q) = _
  rw [shapeCast_self, shapeCast_self, Cert.Spec.spreadColTo_apply 2000 128 x1 broadcasts_S2000x1_S2000x128 p k]

/-- Where each window's block sits at point t: the row blocks move with t, the weights stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The block of x at point t is rows 2000 t … of x. -/
theorem blk_x (c : Dev nD) (t : Fin cfg2.N) (p : Fin 2000) (k : Fin 128) (P : Fin 50000) (hP : P.val = t.val * 2000 + p.val) :
    (iblk2 V c 0 t : FVec Ideal S2000x128 .f32) (ix2 p k) = (V c main_v25 : S50000x128.Idx → EReal) (ix2 P k) := by
  unfold iblk2
  rw [View.read_apply]
  show (V c main_v25 : S50000x128.Idx → EReal) _ = _
  refine congrArg _ (funext fun a => Fin.ext ?_)
  obtain ⟨e0, e1, -⟩ := idx_facts t
  match a with
  | ⟨0, _⟩ => show win2_0.index t (0 : Fin 2) * 2000 + 1 * p.val = P.val; omega
  | ⟨1, _⟩ => show win2_0.index t (1 : Fin 2) * 128 + 1 * k.val = k.val; omega

/-- The block of the column at point t is rows 2000 t … of the column. -/
theorem blk_s (c : Dev nD) (t : Fin cfg2.N) (p : Fin 2000) (P : Fin 50000) (hP : P.val = t.val * 2000 + p.val) :
    (iblk2 V c 1 t : FVec Ideal S2000x1 .f32) (ix2 p (0 : Fin 1)) = (V c main_v26 : S50000x1.Idx → EReal) (ix2 P (0 : Fin 1)) := by
  unfold iblk2
  rw [View.read_apply]
  show (V c main_v26 : S50000x1.Idx → EReal) _ = _
  refine congrArg _ (funext fun a => Fin.ext ?_)
  obtain ⟨-, -, e2, e3, -⟩ := idx_facts t
  match a with
  | ⟨0, _⟩ => show win2_1.index t (0 : Fin 2) * 2000 + 1 * p.val = P.val; omega
  | ⟨1, _⟩ => show win2_1.index t (1 : Fin 2) * 1 + 1 * (0 : Fin 1).val = (0 : Fin 1).val; omega

/-- The block of the weights is the whole of the weights at every point. -/
theorem blk_w (c : Dev nD) (t : Fin cfg2.N) (k : Fin 128) (q : Fin 128) :
    (iblk2 V c 2 t : FVec Ideal S128x128 .f32) (ix2 k q) = (V c main_arg5 : S128x128.Idx → EReal) (ix2 k q) := by
  unfold iblk2
  rw [View.read_apply]
  show (V c main_arg5 : S128x128.Idx → EReal) _ = _
  refine congrArg _ (funext fun a => Fin.ext ?_)
  obtain ⟨-, -, -, -, e4, e5, -⟩ := idx_facts t
  match a with
  | ⟨0, _⟩ => show win2_2.index t (0 : Fin 2) * 128 + 1 * k.val = k.val; omega
  | ⟨1, _⟩ => show win2_2.index t (1 : Fin 2) * 128 + 1 * q.val = q.val; omega

/-- What point t writes back is block t of the whole-array scaled product. -/
theorem flushed_eq (c : Dev nD) (t : Fin cfg2.N) :
    (dat2 V c).flushed 3 t = ((cfg2.win 3).blk t).view.read (Elt Ideal)
      (Cert.Spec.scaledProd128 (V c main_v25) (V c main_v26) (V c main_arg5)) := by
  show (cfg2.win 3).cut (grid2.coords t) ((dat2 V c).after 3 t) = _
  rw [after2_3]
  unfold out2_3
  rw [View.canon_unit_zero hz]
  simp only [View.ld_unit_zero (S := S2000x128) hz, View.ld_unit_zero (S := S2000x1) hz, View.ld_unit_zero (S := S128x128) hz]
  funext j
  obtain ⟨p, q, rfl⟩ : ∃ (p : Fin 2000) (q : Fin 128), j = ix2 p q := ⟨j 0, j 1, eq_ix2 j⟩
  have hN : cfg2.N = 25 := N_2
  have ht : t.val < 25 := hN ▸ t.isLt
  have hp : t.val * 2000 + p.val < 50000 := by have := p.isLt; omega
  obtain ⟨-, -, -, -, -, -, e6, e7⟩ := idx_facts t
  have hemb : ((cfg2.win 3).blk t).view.emb (ix2 p q) = (ix2 (⟨t.val * 2000 + p.val, hp⟩ : Fin 50000) q : S50000x128.Idx) := by
    funext a; apply Fin.ext
    match a with
    | ⟨0, _⟩ => show win2_3.index t (0 : Fin 2) * 2000 + 1 * p.val = t.val * 2000 + p.val; omega
    | ⟨1, _⟩ => show win2_3.index t (1 : Fin 2) * 128 + 1 * q.val = q.val; omega
  rw [View.read_apply, hemb, Cert.Spec.scaledProd128_apply]
  refine (pay_apply (iblk2 V c 0 t) (iblk2 V c 1 t) (iblk2 V c 2 t) p q).trans ?_
  refine Finset.sum_congr rfl fun k _ => ?_
  rw [blk_x V c t p k ⟨t.val * 2000 + p.val, hp⟩ rfl, blk_s V c t p ⟨t.val * 2000 + p.val, hp⟩ rfl, blk_w V c t k q]

/-- Every row of the result array lies in the block of the point its row number divided by 2000 names. -/
theorem cover (i : S50000x128.Idx) :
    ∃ t : Fin cfg2.N, (cfg2.win 3).flush t = true ∧ i ∈ ((cfg2.win 3).blk t).view.set := by
  have hN : cfg2.N = 25 := N_2
  have h0 : (i 0).val < 50000 := (i 0).isLt
  have h1 : (i 1).val < 128 := (i 1).isLt
  obtain ⟨t, ht⟩ : ∃ t : Fin cfg2.N, t.val = (i 0).val / 2000 := ⟨⟨(i 0).val / 2000, by rw [hN]; omega⟩, rfl⟩
  obtain ⟨-, -, -, -, -, -, e6, e7⟩ := idx_facts t
  refine ⟨t, flush2_3 t, ?_⟩
  show i ∈ ((View.whole main_v27).slice (win2_3.rect t)).set
  rw [View.set_slice_whole, Rect.mem_set_unit]
  intro a
  match a with
  | ⟨0, _⟩ =>
    show win2_3.index t (0 : Fin 2) * 2000 ≤ (i 0).val ∧ (i 0).val < win2_3.index t (0 : Fin 2) * 2000 + 2000
    omega
  | ⟨1, _⟩ =>
    show win2_3.index t (1 : Fin 2) * 128 ≤ (i 1).val ∧ (i 1).val < win2_3.index t (1 : Fin 2) * 128 + 128
    omega

/-- The result array after the region: the whole-array scaled product of the arrays the region found. -/
theorem final (c : Dev nD) :
    (dat2 V c).arrAt 3 cfg2.N = Cert.Spec.scaledProd128 (V c main_v25) (V c main_v26) (V c main_arg5) :=
  (dat2 V c).arrAt_eq_of_cover 3 _ (fun t _ => flushed_eq V c t) cover

end Cert.KernelIdeal.Region2

end
-- ==== Proof.Region3.lean ====
/-
  The fourth pallas_call (rows scaled by a column, a bias row added, negative entries cut to zero), as one function of the
  arrays it finds.

  The grid has 25 points; point t works on rows 2000 t … 2000 t + 1999: entry (p, q) of the block it writes back is
  max(a[2000 t + p, q] · s[2000 t + p, 0] + b[0, q], 0), which is entry (2000 t + p, q) of the whole-array function; the
  25 blocks tile the 50000 rows, so the result array ends at the whole-array function.
-/
import proofs.«175351_j60224031424524_1_alg».proof.Proof.Gen.KernelIdeal.Frame
import proofs.«175351_j60224031424524_1_alg».proof.Proof.Spec
import Idealize.ShloMosaic.Lib.Pipeline.Value

noncomputable section

open scoped BigOperators

namespace Cert.KernelIdeal.Region3

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q): the entry scaled by its row's entry of the column, the bias of column q added, cut at zero. -/
theorem pay_apply (x0 : FVec Ideal S2000x128 .f32) (x1 : FVec Ideal S2000x1 .f32) (x4 : FVec Ideal S1x128 .f32)
    (p : Fin 2000) (q : Fin 128) :
    k3_pay1 x0 x1 x4 (ix2 p q)
      = FloatOps.maximumf (FloatOps.addf (FloatOps.mulf (x0 (ix2 p q)) (x1 (ix2 p (0 : Fin 1)))) (x4 (ix2 (0 : Fin 1) q)))
          (Ideal.ofBits .f32 0x00000000#32) := by
  unfold k3_pay1
  show FloatOps.maximumf (FloatOps.addf (FloatOps.mulf (shapeCast S2000x128 x0 shapeCasts_S2000x128_S2000x128 (ix2 p q))
        (broadcastTo S2000x128 (shapeCast S2000x1 x1 shapeCasts_S2000x1_S2000x1) broadcasts_S2000x1_S2000x128 (ix2 p q)))
      (broadcastTo S2000x128 (shapeCast S1x128 x4 shapeCasts_S1x128_S1x128) broadcasts_S1x128_S2000x128 (ix2 p q)))
      (Scalar.ofBits (F := Ideal) .f32 0x00000000#32) = _
  rw [shapeCast_self, shapeCast_self, shapeCast_self, Cert.Spec.spreadColTo_apply 2000 128 x1 broadcasts_S2000x1_S2000x128 p q,
    Cert.Spec.spreadRowTo_apply 2000 128 x4 broadcasts_S1x128_S2000x128 p q]
  rfl

/-- Where each window's block sits at point t: the row blocks move with t, the bias row stays. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The block of a at point t is rows 2000 t … of a. -/
theorem blk_a (c : Dev nD) (t : Fin cfg3.N) (p : Fin 2000) (q : Fin 128) (P : Fin 50000) (hP : P.val = t.val * 2000 + p.val) :
    (iblk3 V c 0 t : FVec Ideal S2000x128 .f32) (ix2 p q) = (V c main_v37 : S50000x128.Idx → EReal) (ix2 P q) := by
  unfold iblk3
  rw [View.read_apply]
  show (V c main_v37 : S50000x128.Idx → EReal) _ = _
  refine congrArg _ (funext fun a => Fin.ext ?_)
  obtain ⟨e0, e1, -⟩ := idx_facts t
  match a with
  | ⟨0, _⟩ => show win3_0.index t (0 : Fin 2) * 2000 + 1 * p.val = P.val; omega
  | ⟨1, _⟩ => show win3_0.index t (1 : Fin 2) * 128 + 1 * q.val = q.val; omega

/-- The block of the column at point t is rows 2000 t … of the column. -/
theorem blk_s (c : Dev nD) (t : Fin cfg3.N) (p : Fin 2000) (P : Fin 50000) (hP : P.val = t.val * 2000 + p.val) :
    (iblk3 V c 1 t : FVec Ideal S2000x1 .f32) (ix2 p (0 : Fin 1)) = (V c main_v38 : S50000x1.Idx → EReal) (ix2 P (0 : Fin 1)) := by
  unfold iblk3
  rw [View.read_apply]
  show (V c main_v38 : S50000x1.Idx → EReal) _ = _
  refine congrArg _ (funext fun a => Fin.ext ?_)
  obtain ⟨-, -, e2, e3, -⟩ := idx_facts t
  match a with
  | ⟨0, _⟩ => show win3_1.index t (0 : Fin 2) * 2000 + 1 * p.val = P.val; omega
  | ⟨1, _⟩ => show win3_1.index t (1 : Fin 2) * 1 + 1 * (0 : Fin 1).val = (0 : Fin 1).val; omega

/-- The block of the bias row is the whole row at every point. -/
theorem blk_b (c : Dev nD) (t : Fin cfg3.N) (q : Fin 128) :
    (iblk3 V c 2 t : FVec Ideal S1x128 .f32) (ix2 (0 : Fin 1) q) = (V c main_v39 : S1x128.Idx → EReal) (ix2 (0 : Fin 1) q) := by
  unfold iblk3
  rw [View.read_apply]
  show (V c main_v39 : S1x128.Idx → EReal) _ = _
  refine congrArg _ (funext fun a => Fin.ext ?_)
  obtain ⟨-, -, -, -, e4, e5, -⟩ := idx_facts t
  match a with
  | ⟨0, _⟩ => show win3_2.index t (0 : Fin 2) * 1 + 1 * (0 : Fin 1).val = (0 : Fin 1).val; omega
  | ⟨1, _⟩ => show win3_2.index t (1 : Fin 2) * 128 + 1 * q.val = q.val; omega

/-- What point t writes back is block t of the whole-array function. -/
theorem flushed_eq (c : Dev nD) (t : Fin cfg3.N) :
    (dat3 V c).flushed 3 t = ((cfg3.win 3).blk t).view.read (Elt Ideal)
      (Cert.Spec.scaleShiftRelu (V c main_v37) (V c main_v38) (V c main_v39)) := by
  show (cfg3.win 3).cut (grid3.coords t) ((dat3 V c).after 3 t) = _
  rw [after3_3]
  unfold out3_3
  rw [View.canon_unit_zero hz]
  simp only [View.ld_unit_zero (S := S2000x128) hz, View.ld_unit_zero (S := S2000x1) hz, View.ld_unit_zero (S := S1x128) hz]
  funext j
  obtain ⟨p, q, rfl⟩ : ∃ (p : Fin 2000) (q : Fin 128), j = ix2 p q := ⟨j 0, j 1, eq_ix2 j⟩
  have hN : cfg3.N = 25 := N_3
  have ht : t.val < 25 := hN ▸ t.isLt
  have hp : t.val * 2000 + p.val < 50000 := by have := p.isLt; omega
  obtain ⟨-, -, -, -, -, -, e6, e7⟩ := idx_facts t
  have hemb : ((cfg3.win 3).blk t).view.emb (ix2 p q) = (ix2 (⟨t.val * 2000 + p.val, hp⟩ : Fin 50000) q : S50000x128.Idx) := by
    funext a; apply Fin.ext
    match a with
    | ⟨0, _⟩ => show win3_3.index t (0 : Fin 2) * 2000 + 1 * p.val = t.val * 2000 + p.val; omega
    | ⟨1, _⟩ => show win3_3.index t (1 : Fin 2) * 128 + 1 * q.val = q.val; omega
  rw [View.read_apply, hemb, Cert.Spec.scaleShiftRelu_apply]
  refine (pay_apply (iblk3 V c 0 t) (iblk3 V c 1 t) (iblk3 V c 2 t) p q).trans ?_
  rw [blk_a V c t p q ⟨t.val * 2000 + p.val, hp⟩ rfl, blk_s V c t p ⟨t.val * 2000 + p.val, hp⟩ rfl, blk_b V c t q]
  rfl

/-- Every row of the result array lies in the block of the point its row number divided by 2000 names. -/
theorem cover (i : S50000x128.Idx) :
    ∃ t : Fin cfg3.N, (cfg3.win 3).flush t = true ∧ i ∈ ((cfg3.win 3).blk t).view.set := by
  have hN : cfg3.N = 25 := N_3
  have h0 : (i 0).val < 50000 := (i 0).isLt
  have h1 : (i 1).val < 128 := (i 1).isLt
  obtain ⟨t, ht⟩ : ∃ t : Fin cfg3.N, t.val = (i 0).val / 2000 := ⟨⟨(i 0).val / 2000, by rw [hN]; omega⟩, rfl⟩
  obtain ⟨-, -, -, -, -, -, e6, e7⟩ := idx_facts t
  refine ⟨t, flush3_3 t, ?_⟩
  show i ∈ ((View.whole main_v40).slice (win3_3.rect t)).set
  rw [View.set_slice_whole, Rect.mem_set_unit]
  intro a
  match a with
  | ⟨0, _⟩ =>
    show win3_3.index t (0 : Fin 2) * 2000 ≤ (i 0).val ∧ (i 0).val < win3_3.index t (0 : Fin 2) * 2000 + 2000
    omega
  | ⟨1, _⟩ =>
    show win3_3.index t (1 : Fin 2) * 128 ≤ (i 1).val ∧ (i 1).val < win3_3.index t (1 : Fin 2) * 128 + 128
    omega

/-- The result array after the region: the whole-array function of the arrays the region found. -/
theorem final (c : Dev nD) :
    (dat3 V c).arrAt 3 cfg3.N = Cert.Spec.scaleShiftRelu (V c main_v37) (V c main_v38) (V c main_v39) :=
  (dat3 V c).arrAt_eq_of_cover 3 _ (fun t _ => flushed_eq V c t) cover

end Cert.KernelIdeal.Region3

end
-- ==== Proof.Region4.lean ====
/-
  The fifth pallas_call (rows scaled by a column, then the dense product, 128 input features), as one function of the
  arrays it finds.

  The grid has 25 points; point t works on rows 2000 t … 2000 t + 1999: it multiplies each row of its block of x by that
  row's entry of the column s, and takes the product with the whole of w.  So entry (p, q) of the block it writes back is
  the sum over k of (x[2000 t + p, k] · s[2000 t + p, 0]) · w[k, q], which is entry (2000 t + p, q) of the whole-array
  product; the 25 blocks tile the 50000 rows, so the result array ends at the whole-array product.
-/
import proofs.«175351_j60224031424524_1_alg».proof.Proof.Gen.KernelIdeal.Frame
import proofs.«175351_j60224031424524_1_alg».proof.Proof.Spec
import Idealize.ShloMosaic.Lib.Pipeline.Value

noncomputable section

open scoped BigOperators

namespace Cert.KernelIdeal.Region4

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q): the row of the first block scaled by the column's entry, times column q of the third. -/
theorem pay_apply (x0 : FVec Ideal S2000x128 .f32) (x1 : FVec Ideal S2000x1 .f32) (x3 : FVec Ideal S128x128 .f32)
    (p : Fin 2000) (q : Fin 128) :
    k4_pay1 x0 x1 x3 (ix2 p q)
      = ∑ k : Fin 128, FloatOps.mulf (x0 (ix2 p k)) (x1 (ix2 p (0 : Fin 1))) * x3 (ix2 k q) := by
  unfold k4_pay1
  refine (Cert.Lib.RowOps.matmul_zero_apply 2000 128 128 none _ _ p q).trans ?_
  refine Finset.sum_congr rfl fun k _ => ?_
  show FloatOps.mulf (shapeCast S2000x128 x0 shapeCasts_S2000x128_S2000x128 (ix2 p k))
      (broadcastTo S2000x128 (shapeCast S2000x1 x1 shapeCasts_S2000x1_S2000x1) broadcasts_S2000x1_S2000x128 (ix2 p k)) * x3 (ix2 k q) = _
  rw [shapeCast_self, shapeCast_self, Cert.Spec.spreadColTo_apply 2000 128 x1 broadcasts_S2000x1_S2000x128 p k]

/-- Where each window's block sits at point t: the row blocks move with t, the weights stay. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The block of x at point t is rows 2000 t … of x. -/
theorem blk_x (c : Dev nD) (t : Fin cfg4.N) (p : Fin 2000) (k : Fin 128) (P : Fin 50000) (hP : P.val = t.val * 2000 + p.val) :
    (iblk4 V c 0 t : FVec Ideal S2000x128 .f32) (ix2 p k) = (V c main_v40 : S50000x128.Idx → EReal) (ix2 P k) := by
  unfold iblk4
  rw [View.read_apply]
  show (V c main_v40 : S50000x128.Idx → EReal) _ = _
  refine congrArg _ (funext fun a => Fin.ext ?_)
  obtain ⟨e0, e1, -⟩ := idx_facts t
  match a with
  | ⟨0, _⟩ => show win4_0.index t (0 : Fin 2) * 2000 + 1 * p.val = P.val; omega
  | ⟨1, _⟩ => show win4_0.index t (1 : Fin 2) * 128 + 1 * k.val = k.val; omega

/-- The block of the column at point t is rows 2000 t … of the column. -/
theorem blk_s (c : Dev nD) (t : Fin cfg4.N) (p : Fin 2000) (P : Fin 50000) (hP : P.val = t.val * 2000 + p.val) :
    (iblk4 V c 1 t : FVec Ideal S2000x1 .f32) (ix2 p (0 : Fin 1)) = (V c main_v41 : S50000x1.Idx → EReal) (ix2 P (0 : Fin 1)) := by
  unfold iblk4
  rw [View.read_apply]
  show (V c main_v41 : S50000x1.Idx → EReal) _ = _
  refine congrArg _ (funext fun a => Fin.ext ?_)
  obtain ⟨-, -, e2, e3, -⟩ := idx_facts t
  match a with
  | ⟨0, _⟩ => show win4_1.index t (0 : Fin 2) * 2000 + 1 * p.val = P.val; omega
  | ⟨1, _⟩ => show win4_1.index t (1 : Fin 2) * 1 + 1 * (0 : Fin 1).val = (0 : Fin 1).val; omega

/-- The block of the weights is the whole of the weights at every point. -/
theorem blk_w (c : Dev nD) (t : Fin cfg4.N) (k : Fin 128) (q : Fin 128) :
    (iblk4 V c 2 t : FVec Ideal S128x128 .f32) (ix2 k q) = (V c main_arg7 : S128x128.Idx → EReal) (ix2 k q) := by
  unfold iblk4
  rw [View.read_apply]
  show (V c main_arg7 : S128x128.Idx → EReal) _ = _
  refine congrArg _ (funext fun a => Fin.ext ?_)
  obtain ⟨-, -, -, -, e4, e5, -⟩ := idx_facts t
  match a with
  | ⟨0, _⟩ => show win4_2.index t (0 : Fin 2) * 128 + 1 * k.val = k.val; omega
  | ⟨1, _⟩ => show win4_2.index t (1 : Fin 2) * 128 + 1 * q.val = q.val; omega

/-- What point t writes back is block t of the whole-array scaled product. -/
theorem flushed_eq (c : Dev nD) (t : Fin cfg4.N) :
    (dat4 V c).flushed 3 t = ((cfg4.win 3).blk t).view.read (Elt Ideal)
      (Cert.Spec.scaledProd128 (V c main_v40) (V c main_v41) (V c main_arg7)) := by
  show (cfg4.win 3).cut (grid4.coords t) ((dat4 V c).after 3 t) = _
  rw [after4_3]
  unfold out4_3
  rw [View.canon_unit_zero hz]
  simp only [View.ld_unit_zero (S := S2000x128) hz, View.ld_unit_zero (S := S2000x1) hz, View.ld_unit_zero (S := S128x128) hz]
  funext j
  obtain ⟨p, q, rfl⟩ : ∃ (p : Fin 2000) (q : Fin 128), j = ix2 p q := ⟨j 0, j 1, eq_ix2 j⟩
  have hN : cfg4.N = 25 := N_4
  have ht : t.val < 25 := hN ▸ t.isLt
  have hp : t.val * 2000 + p.val < 50000 := by have := p.isLt; omega
  obtain ⟨-, -, -, -, -, -, e6, e7⟩ := idx_facts t
  have hemb : ((cfg4.win 3).blk t).view.emb (ix2 p q) = (ix2 (⟨t.val * 2000 + p.val, hp⟩ : Fin 50000) q : S50000x128.Idx) := by
    funext a; apply Fin.ext
    match a with
    | ⟨0, _⟩ => show win4_3.index t (0 : Fin 2) * 2000 + 1 * p.val = t.val * 2000 + p.val; omega
    | ⟨1, _⟩ => show win4_3.index t (1 : Fin 2) * 128 + 1 * q.val = q.val; omega
  rw [View.read_apply, hemb, Cert.Spec.scaledProd128_apply]
  refine (pay_apply (iblk4 V c 0 t) (iblk4 V c 1 t) (iblk4 V c 2 t) p q).trans ?_
  refine Finset.sum_congr rfl fun k _ => ?_
  rw [blk_x V c t p k ⟨t.val * 2000 + p.val, hp⟩ rfl, blk_s V c t p ⟨t.val * 2000 + p.val, hp⟩ rfl, blk_w V c t k q]

/-- Every row of the result array lies in the block of the point its row number divided by 2000 names. -/
theorem cover (i : S50000x128.Idx) :
    ∃ t : Fin cfg4.N, (cfg4.win 3).flush t = true ∧ i ∈ ((cfg4.win 3).blk t).view.set := by
  have hN : cfg4.N = 25 := N_4
  have h0 : (i 0).val < 50000 := (i 0).isLt
  have h1 : (i 1).val < 128 := (i 1).isLt
  obtain ⟨t, ht⟩ : ∃ t : Fin cfg4.N, t.val = (i 0).val / 2000 := ⟨⟨(i 0).val / 2000, by rw [hN]; omega⟩, rfl⟩
  obtain ⟨-, -, -, -, -, -, e6, e7⟩ := idx_facts t
  refine ⟨t, flush4_3 t, ?_⟩
  show i ∈ ((View.whole main_v42).slice (win4_3.rect t)).set
  rw [View.set_slice_whole, Rect.mem_set_unit]
  intro a
  match a with
  | ⟨0, _⟩ =>
    show win4_3.index t (0 : Fin 2) * 2000 ≤ (i 0).val ∧ (i 0).val < win4_3.index t (0 : Fin 2) * 2000 + 2000
    omega
  | ⟨1, _⟩ =>
    show win4_3.index t (1 : Fin 2) * 128 ≤ (i 1).val ∧ (i 1).val < win4_3.index t (1 : Fin 2) * 128 + 128
    omega

/-- The result array after the region: the whole-array scaled product of the arrays the region found. -/
theorem final (c : Dev nD) :
    (dat4 V c).arrAt 3 cfg4.N = Cert.Spec.scaledProd128 (V c main_v40) (V c main_v41) (V c main_arg7) :=
  (dat4 V c).arrAt_eq_of_cover 3 _ (fun t _ => flushed_eq V c t) cover

end Cert.KernelIdeal.Region4

end
-- ==== Proof.Region5.lean ====
/-
  The sixth pallas_call (rows scaled by a column, a bias row added, negative entries cut to zero), as one function of the
  arrays it finds.

  The grid has 25 points; point t works on rows 2000 t … 2000 t + 1999: entry (p, q) of the block it writes back is
  max(a[2000 t + p, q] · s[2000 t + p, 0] + b[0, q], 0), which is entry (2000 t + p, q) of the whole-array function; the
  25 blocks tile the 50000 rows, so the result array ends at the whole-array function.
-/
import proofs.«175351_j60224031424524_1_alg».proof.Proof.Gen.KernelIdeal.Frame
import proofs.«175351_j60224031424524_1_alg».proof.Proof.Spec
import Idealize.ShloMosaic.Lib.Pipeline.Value

noncomputable section

open scoped BigOperators

namespace Cert.KernelIdeal.Region5

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q): the entry scaled by its row's entry of the column, the bias of column q added, cut at zero. -/
theorem pay_apply (x0 : FVec Ideal S2000x128 .f32) (x1 : FVec Ideal S2000x1 .f32) (x4 : FVec Ideal S1x128 .f32)
    (p : Fin 2000) (q : Fin 128) :
    k5_pay1 x0 x1 x4 (ix2 p q)
      = FloatOps.maximumf (FloatOps.addf (FloatOps.mulf (x0 (ix2 p q)) (x1 (ix2 p (0 : Fin 1)))) (x4 (ix2 (0 : Fin 1) q)))
          (Ideal.ofBits .f32 0x00000000#32) := by
  unfold k5_pay1
  show FloatOps.maximumf (FloatOps.addf (FloatOps.mulf (shapeCast S2000x128 x0 shapeCasts_S2000x128_S2000x128 (ix2 p q))
        (broadcastTo S2000x128 (shapeCast S2000x1 x1 shapeCasts_S2000x1_S2000x1) broadcasts_S2000x1_S2000x128 (ix2 p q)))
      (broadcastTo S2000x128 (shapeCast S1x128 x4 shapeCasts_S1x128_S1x128) broadcasts_S1x128_S2000x128 (ix2 p q)))
      (Scalar.ofBits (F := Ideal) .f32 0x00000000#32) = _
  rw [shapeCast_self, shapeCast_self, shapeCast_self, Cert.Spec.spreadColTo_apply 2000 128 x1 broadcasts_S2000x1_S2000x128 p q,
    Cert.Spec.spreadRowTo_apply 2000 128 x4 broadcasts_S1x128_S2000x128 p q]
  rfl

/-- Where each window's block sits at point t: the row blocks move with t, the bias row stays. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The block of a at point t is rows 2000 t … of a. -/
theorem blk_a (c : Dev nD) (t : Fin cfg5.N) (p : Fin 2000) (q : Fin 128) (P : Fin 50000) (hP : P.val = t.val * 2000 + p.val) :
    (iblk5 V c 0 t : FVec Ideal S2000x128 .f32) (ix2 p q) = (V c main_v52 : S50000x128.Idx → EReal) (ix2 P q) := by
  unfold iblk5
  rw [View.read_apply]
  show (V c main_v52 : S50000x128.Idx → EReal) _ = _
  refine congrArg _ (funext fun a => Fin.ext ?_)
  obtain ⟨e0, e1, -⟩ := idx_facts t
  match a with
  | ⟨0, _⟩ => show win5_0.index t (0 : Fin 2) * 2000 + 1 * p.val = P.val; omega
  | ⟨1, _⟩ => show win5_0.index t (1 : Fin 2) * 128 + 1 * q.val = q.val; omega

/-- The block of the column at point t is rows 2000 t … of the column. -/
theorem blk_s (c : Dev nD) (t : Fin cfg5.N) (p : Fin 2000) (P : Fin 50000) (hP : P.val = t.val * 2000 + p.val) :
    (iblk5 V c 1 t : FVec Ideal S2000x1 .f32) (ix2 p (0 : Fin 1)) = (V c main_v53 : S50000x1.Idx → EReal) (ix2 P (0 : Fin 1)) := by
  unfold iblk5
  rw [View.read_apply]
  show (V c main_v53 : S50000x1.Idx → EReal) _ = _
  refine congrArg _ (funext fun a => Fin.ext ?_)
  obtain ⟨-, -, e2, e3, -⟩ := idx_facts t
  match a with
  | ⟨0, _⟩ => show win5_1.index t (0 : Fin 2) * 2000 + 1 * p.val = P.val; omega
  | ⟨1, _⟩ => show win5_1.index t (1 : Fin 2) * 1 + 1 * (0 : Fin 1).val = (0 : Fin 1).val; omega

/-- The block of the bias row is the whole row at every point. -/
theorem blk_b (c : Dev nD) (t : Fin cfg5.N) (q : Fin 128) :
    (iblk5 V c 2 t : FVec Ideal S1x128 .f32) (ix2 (0 : Fin 1) q) = (V c main_v54 : S1x128.Idx → EReal) (ix2 (0 : Fin 1) q) := by
  unfold iblk5
  rw [View.read_apply]
  show (V c main_v54 : S1x128.Idx → EReal) _ = _
  refine congrArg _ (funext fun a => Fin.ext ?_)
  obtain ⟨-, -, -, -, e4, e5, -⟩ := idx_facts t
  match a with
  | ⟨0, _⟩ => show win5_2.index t (0 : Fin 2) * 1 + 1 * (0 : Fin 1).val = (0 : Fin 1).val; omega
  | ⟨1, _⟩ => show win5_2.index t (1 : Fin 2) * 128 + 1 * q.val = q.val; omega

/-- What point t writes back is block t of the whole-array function. -/
theorem flushed_eq (c : Dev nD) (t : Fin cfg5.N) :
    (dat5 V c).flushed 3 t = ((cfg5.win 3).blk t).view.read (Elt Ideal)
      (Cert.Spec.scaleShiftRelu (V c main_v52) (V c main_v53) (V c main_v54)) := by
  show (cfg5.win 3).cut (grid5.coords t) ((dat5 V c).after 3 t) = _
  rw [after5_3]
  unfold out5_3
  rw [View.canon_unit_zero hz]
  simp only [View.ld_unit_zero (S := S2000x128) hz, View.ld_unit_zero (S := S2000x1) hz, View.ld_unit_zero (S := S1x128) hz]
  funext j
  obtain ⟨p, q, rfl⟩ : ∃ (p : Fin 2000) (q : Fin 128), j = ix2 p q := ⟨j 0, j 1, eq_ix2 j⟩
  have hN : cfg5.N = 25 := N_5
  have ht : t.val < 25 := hN ▸ t.isLt
  have hp : t.val * 2000 + p.val < 50000 := by have := p.isLt; omega
  obtain ⟨-, -, -, -, -, -, e6, e7⟩ := idx_facts t
  have hemb : ((cfg5.win 3).blk t).view.emb (ix2 p q) = (ix2 (⟨t.val * 2000 + p.val, hp⟩ : Fin 50000) q : S50000x128.Idx) := by
    funext a; apply Fin.ext
    match a with
    | ⟨0, _⟩ => show win5_3.index t (0 : Fin 2) * 2000 + 1 * p.val = t.val * 2000 + p.val; omega
    | ⟨1, _⟩ => show win5_3.index t (1 : Fin 2) * 128 + 1 * q.val = q.val; omega
  rw [View.read_apply, hemb, Cert.Spec.scaleShiftRelu_apply]
  refine (pay_apply (iblk5 V c 0 t) (iblk5 V c 1 t) (iblk5 V c 2 t) p q).trans ?_
  rw [blk_a V c t p q ⟨t.val * 2000 + p.val, hp⟩ rfl, blk_s V c t p ⟨t.val * 2000 + p.val, hp⟩ rfl, blk_b V c t q]
  rfl

/-- Every row of the result array lies in the block of the point its row number divided by 2000 names. -/
theorem cover (i : S50000x128.Idx) :
    ∃ t : Fin cfg5.N, (cfg5.win 3).flush t = true ∧ i ∈ ((cfg5.win 3).blk t).view.set := by
  have hN : cfg5.N = 25 := N_5
  have h0 : (i 0).val < 50000 := (i 0).isLt
  have h1 : (i 1).val < 128 := (i 1).isLt
  obtain ⟨t, ht⟩ : ∃ t : Fin cfg5.N, t.val = (i 0).val / 2000 := ⟨⟨(i 0).val / 2000, by rw [hN]; omega⟩, rfl⟩
  obtain ⟨-, -, -, -, -, -, e6, e7⟩ := idx_facts t
  refine ⟨t, flush5_3 t, ?_⟩
  show i ∈ ((View.whole main_v55).slice (win5_3.rect t)).set
  rw [View.set_slice_whole, Rect.mem_set_unit]
  intro a
  match a with
  | ⟨0, _⟩ =>
    show win5_3.index t (0 : Fin 2) * 2000 ≤ (i 0).val ∧ (i 0).val < win5_3.index t (0 : Fin 2) * 2000 + 2000
    omega
  | ⟨1, _⟩ =>
    show win5_3.index t (1 : Fin 2) * 128 ≤ (i 1).val ∧ (i 1).val < win5_3.index t (1 : Fin 2) * 128 + 128
    omega

/-- The result array after the region: the whole-array function of the arrays the region found. -/
theorem final (c : Dev nD) :
    (dat5 V c).arrAt 3 cfg5.N = Cert.Spec.scaleShiftRelu (V c main_v52) (V c main_v53) (V c main_v54) :=
  (dat5 V c).arrAt_eq_of_cover 3 _ (fun t _ => flushed_eq V c t) cover

end Cert.KernelIdeal.Region5

end
-- ==== Proof.Region6.lean ====
/-
  The last pallas_call (relu of the sum of two feature arrays, the dense product with 41 output features, a bias row
  added), as one function of the arrays it finds.

  The grid has 25 points; point t works on rows 2000 t … 2000 t + 1999: entry (p, q) of the block it writes back is the
  sum over k of max(x3[2000 t + p, k] + x2[2000 t + p, k], 0) · w[k, q], plus b[0, q], which is entry (2000 t + p, q) of
  the whole-array function; the 25 blocks tile the 50000 rows, so the result array ends at the whole-array function.
-/
import proofs.«175351_j60224031424524_1_alg».proof.Proof.Gen.KernelIdeal.Frame
import proofs.«175351_j60224031424524_1_alg».proof.Proof.Spec
import Idealize.ShloMosaic.Lib.Pipeline.Value

noncomputable section

open scoped BigOperators

namespace Cert.KernelIdeal.Region6

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q). -/
theorem pay_apply (x0 x2 : FVec Ideal S2000x128 .f32) (x8 : FVec Ideal S128x41 .f32) (x11 : FVec Ideal S1x41 .f32)
    (p : Fin 2000) (q : Fin 41) :
    k6_pay1 x0 x2 x8 x11 (ix2 p q)
      = FloatOps.addf (∑ k : Fin 128, FloatOps.maximumf (FloatOps.addf (x0 (ix2 p k)) (x2 (ix2 p k)))
            (Ideal.ofBits .f32 0x00000000#32) * x8 (ix2 k q)) (x11 (ix2 (0 : Fin 1) q)) := by
  unfold k6_pay1
  show FloatOps.addf (FloatOps.matmul _ none _ _ _ (ix2 p q))
      (broadcastTo S2000x41 (shapeCast S1x41 x11 shapeCasts_S1x41_S1x41) broadcasts_S1x41_S2000x41 (ix2 p q)) = _
  rw [shapeCast_self, shapeCast_self, shapeCast_self, Cert.Spec.spreadRowTo_apply 2000 41 x11 broadcasts_S1x41_S2000x41 p q]
  refine congrArg (fun z => FloatOps.addf z (x11 (ix2 (0 : Fin 1) q))) ?_
  refine (Cert.Lib.RowOps.matmul_zero_apply 2000 128 41 none _ _ p q).trans ?_
  refine Finset.sum_congr rfl fun k _ => ?_
  rfl

/-- Where each window's block sits at point t: the row blocks move with t, the weights and the bias row stay. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- The block of x3 at point t is rows 2000 t … of x3. -/
theorem blk_x3 (c : Dev nD) (t : Fin cfg6.N) (p : Fin 2000) (k : Fin 128) (P : Fin 50000) (hP : P.val = t.val * 2000 + p.val) :
    (iblk6 V c 0 t : FVec Ideal S2000x128 .f32) (ix2 p k) = (V c main_v55 : S50000x128.Idx → EReal) (ix2 P k) := by
  unfold iblk6
  rw [View.read_apply]
  show (V c main_v55 : S50000x128.Idx → EReal) _ = _
  refine congrArg _ (funext fun a => Fin.ext ?_)
  obtain ⟨e0, e1, -⟩ := idx_facts t
  match a with
  | ⟨0, _⟩ => show win6_0.index t (0 : Fin 2) * 2000 + 1 * p.val = P.val; omega
  | ⟨1, _⟩ => show win6_0.index t (1 : Fin 2) * 128 + 1 * k.val = k.val; omega

/-- The block of x2 at point t is rows 2000 t … of x2. -/
theorem blk_x2 (c : Dev nD) (t : Fin cfg6.N) (p : Fin 2000) (k : Fin 128) (P : Fin 50000) (hP : P.val = t.val * 2000 + p.val) :
    (iblk6 V c 1 t : FVec Ideal S2000x128 .f32) (ix2 p k) = (V c main_v40 : S50000x128.Idx → EReal) (ix2 P k) := by
  unfold iblk6
  rw [View.read_apply]
  show (V c main_v40 : S50000x128.Idx → EReal) _ = _
  refine congrArg _ (funext fun a => Fin.ext ?_)
  obtain ⟨-, -, e2, e3, -⟩ := idx_facts t
  match a with
  | ⟨0, _⟩ => show win6_1.index t (0 : Fin 2) * 2000 + 1 * p.val = P.val; omega
  | ⟨1, _⟩ => show win6_1.index t (1 : Fin 2) * 128 + 1 * k.val = k.val; omega

/-- The block of the weights is the whole of the weights at every point. -/
theorem blk_w (c : Dev nD) (t : Fin cfg6.N) (k : Fin 128) (q : Fin 41) :
    (iblk6 V c 2 t : FVec Ideal S128x41 .f32) (ix2 k q) = (V c main_arg9 : S128x41.Idx → EReal) (ix2 k q) := by
  unfold iblk6
  rw [View.read_apply]
  show (V c main_arg9 : S128x41.Idx → EReal) _ = _
  refine congrArg _ (funext fun a => Fin.ext ?_)
  obtain ⟨-, -, -, -, e4, e5, -⟩ := idx_facts t
  match a with
  | ⟨0, _⟩ => show win6_2.index t (0 : Fin 2) * 128 + 1 * k.val = k.val; omega
  | ⟨1, _⟩ => show win6_2.index t (1 : Fin 2) * 41 + 1 * q.val = q.val; omega

/-- The block of the bias row is the whole row at every point. -/
theorem blk_b (c : Dev nD) (t : Fin cfg6.N) (q : Fin 41) :
    (iblk6 V c 3 t : FVec Ideal S1x41 .f32) (ix2 (0 : Fin 1) q) = (V c main_v56 : S1x41.Idx → EReal) (ix2 (0 : Fin 1) q) := by
  unfold iblk6
  rw [View.read_apply]
  show (V c main_v56 : S1x41.Idx → EReal) _ = _
  refine congrArg _ (funext fun a => Fin.ext ?_)
  obtain ⟨-, -, -, -, -, -, e6, e7, -⟩ := idx_facts t
  match a with
  | ⟨0, _⟩ => show win6_3.index t (0 : Fin 2) * 1 + 1 * (0 : Fin 1).val = (0 : Fin 1).val; omega
  | ⟨1, _⟩ => show win6_3.index t (1 : Fin 2) * 41 + 1 * q.val = q.val; omega

/-- What point t writes back is block t of the whole-array function. -/
theorem flushed_eq (c : Dev nD) (t : Fin cfg6.N) :
    (dat6 V c).flushed 4 t = ((cfg6.win 4).blk t).view.read (Elt Ideal)
      (Cert.Spec.sumReluProd (V c main_v55) (V c main_v40) (V c main_arg9) (V c main_v56)) := by
  show (cfg6.win 4).cut (grid6.coords t) ((dat6 V c).after 4 t) = _
  rw [after6_4]
  unfold out6_4
  rw [View.canon_unit_zero hz]
  simp only [View.ld_unit_zero (S := S2000x128) hz, View.ld_unit_zero (S := S128x41) hz, View.ld_unit_zero (S := S1x41) hz]
  funext j
  obtain ⟨p, q, rfl⟩ : ∃ (p : Fin 2000) (q : Fin 41), j = ix2 p q := ⟨j 0, j 1, eq_ix2 j⟩
  have hN : cfg6.N = 25 := N_6
  have ht : t.val < 25 := hN ▸ t.isLt
  have hp : t.val * 2000 + p.val < 50000 := by have := p.isLt; omega
  obtain ⟨-, -, -, -, -, -, -, -, e8, e9⟩ := idx_facts t
  have hemb : ((cfg6.win 4).blk t).view.emb (ix2 p q) = (ix2 (⟨t.val * 2000 + p.val, hp⟩ : Fin 50000) q : S50000x41.Idx) := by
    funext a; apply Fin.ext
    match a with
    | ⟨0, _⟩ => show win6_4.index t (0 : Fin 2) * 2000 + 1 * p.val = t.val * 2000 + p.val; omega
    | ⟨1, _⟩ => show win6_4.index t (1 : Fin 2) * 41 + 1 * q.val = q.val; omega
  rw [View.read_apply, hemb, Cert.Spec.sumReluProd_apply]
  refine (pay_apply (iblk6 V c 0 t) (iblk6 V c 1 t) (iblk6 V c 2 t) (iblk6 V c 3 t) p q).trans ?_
  rw [blk_b V c t q]
  refine congrArg (fun z => FloatOps.addf (F := Ideal) (φ := .f32) z ((V c main_v56 : S1x41.Idx → EReal) (ix2 (0 : Fin 1) q))) ?_
  refine Finset.sum_congr rfl fun k _ => ?_
  rw [blk_x3 V c t p k ⟨t.val * 2000 + p.val, hp⟩ rfl, blk_x2 V c t p k ⟨t.val * 2000 + p.val, hp⟩ rfl, blk_w V c t k q]

/-- Every row of the result array lies in the block of the point its row number divided by 2000 names. -/
theorem cover (i : S50000x41.Idx) :
    ∃ t : Fin cfg6.N, (cfg6.win 4).flush t = true ∧ i ∈ ((cfg6.win 4).blk t).view.set := by
  have hN : cfg6.N = 25 := N_6
  have h0 : (i 0).val < 50000 := (i 0).isLt
  have h1 : (i 1).val < 41 := (i 1).isLt
  obtain ⟨t, ht⟩ : ∃ t : Fin cfg6.N, t.val = (i 0).val / 2000 := ⟨⟨(i 0).val / 2000, by rw [hN]; omega⟩, rfl⟩
  obtain ⟨-, -, -, -, -, -, -, -, e8, e9⟩ := idx_facts t
  refine ⟨t, flush6_4 t, ?_⟩
  show i ∈ ((View.whole main_v57).slice (win6_4.rect t)).set
  rw [View.set_slice_whole, Rect.mem_set_unit]
  intro a
  match a with
  | ⟨0, _⟩ =>
    show win6_4.index t (0 : Fin 2) * 2000 ≤ (i 0).val ∧ (i 0).val < win6_4.index t (0 : Fin 2) * 2000 + 2000
    omega
  | ⟨1, _⟩ =>
    show win6_4.index t (1 : Fin 2) * 41 ≤ (i 1).val ∧ (i 1).val < win6_4.index t (1 : Fin 2) * 41 + 41
    omega

/-- The result array after the region: the whole-array function of the arrays the region found. -/
theorem final (c : Dev nD) :
    (dat6 V c).arrAt 4 cfg6.N
      = Cert.Spec.sumReluProd (V c main_v55) (V c main_v40) (V c main_arg9) (V c main_v56) :=
  (dat6 V c).arrAt_eq_of_cover 4 _ (fun t _ => flushed_eq V c t) cover

end Cert.KernelIdeal.Region6

end
-- ==== Proof.Fold.lean ====
/-
  The kernel program's result array, followed through the program: what the last boundary of the run's fold holds at the
  result is the specification's network of the arguments.

  The fold alternates host stretches and pallas_calls.  A pallas_call replaces its result array by its whole-array
  function of the arrays it found and leaves every other buffer; a host stretch writes its own results and leaves every
  other buffer.  So each layer's arrays are read off in order: the degree factors once, before the first call; then per
  layer the scaled product, the message passing on the host, the scaled shift with relu; at the end the sum of the last
  two layers' outputs through relu, the last product and the bias.
-/
import proofs.«175351_j60224031424524_1_alg».proof.Proof.Gen.KernelIdeal.Frame
import proofs.«175351_j60224031424524_1_alg».proof.Proof.Spec
import proofs.«175351_j60224031424524_1_alg».proof.Proof.HostSteps
import proofs.«175351_j60224031424524_1_alg».proof.Proof.Region0
import proofs.«175351_j60224031424524_1_alg».proof.Proof.Region1
import proofs.«175351_j60224031424524_1_alg».proof.Proof.Region2
import proofs.«175351_j60224031424524_1_alg».proof.Proof.Region3
import proofs.«175351_j60224031424524_1_alg».proof.Proof.Region4
import proofs.«175351_j60224031424524_1_alg».proof.Proof.Region5
import proofs.«175351_j60224031424524_1_alg».proof.Proof.Region6

noncomputable section

namespace Cert.KernelIdeal.Fold

open Cert.KernelIdeal Cert.KernelIdeal.Gen Idealize.ShloMosaic Idealize.ShloMosaic.TcCoe Idealize.SL.Sem
open Idealize.ShloMosaic.StableHlo Cert.KernelIdeal.HostSteps

variable (m : (ℓ : Loc nD τ sig) → Buf (Elt Ideal) ℓ) (ρ : Dev nD → PrngReg) (c : Dev nD)

/-! ## Before the first call -/

/-- A buffer none of the five stretches before the first call writes holds its launch contents at the call's entry. -/
theorem W5_of_kept (b : DevRef τ sig) (h0 : ∀ op ∈ (hostOps0 (F := Ideal)), b ∉ op.writes)
    (h1 : ∀ op ∈ (hostOps0_1 (F := Ideal)), b ∉ op.writes) (h2 : ∀ op ∈ (hostOps0_2 (F := Ideal)), b ∉ op.writes)
    (h3 : ∀ op ∈ (hostOps0_3 (F := Ideal)), b ∉ op.writes) (h4 : ∀ op ∈ (hostOps0_4 (F := Ideal)), b ∉ op.writes) :
    W5 m ρ c b = W0 m ρ c b :=
  (after_of_forall_not_mem _ _ h4).trans ((after_of_forall_not_mem _ _ h3).trans ((after_of_forall_not_mem _ _ h2).trans
    ((after_of_forall_not_mem _ _ h1).trans (after_of_forall_not_mem _ _ h0))))

theorem W5_arg0 : W5 m ρ c (Proc.devRef .tc main_arg0) = (m ((c : Thread nD τ).loc main_arg0)) := W5_of_kept m ρ c _ (by kept) (by kept) (by kept) (by kept) (by kept)
theorem W5_arg1 : W5 m ρ c (Proc.devRef .tc main_arg1) = (m ((c : Thread nD τ).loc main_arg1)) := W5_of_kept m ρ c _ (by kept) (by kept) (by kept) (by kept) (by kept)
theorem W5_arg2 : W5 m ρ c (Proc.devRef .tc main_arg2) = (m ((c : Thread nD τ).loc main_arg2)) := W5_of_kept m ρ c _ (by kept) (by kept) (by kept) (by kept) (by kept)
theorem W5_arg3 : W5 m ρ c (Proc.devRef .tc main_arg3) = (m ((c : Thread nD τ).loc main_arg3)) := W5_of_kept m ρ c _ (by kept) (by kept) (by kept) (by kept) (by kept)
theorem W5_arg4 : W5 m ρ c (Proc.devRef .tc main_arg4) = (m ((c : Thread nD τ).loc main_arg4)) := W5_of_kept m ρ c _ (by kept) (by kept) (by kept) (by kept) (by kept)
theorem W5_arg5 : W5 m ρ c (Proc.devRef .tc main_arg5) = (m ((c : Thread nD τ).loc main_arg5)) := W5_of_kept m ρ c _ (by kept) (by kept) (by kept) (by kept) (by kept)
theorem W5_arg6 : W5 m ρ c (Proc.devRef .tc main_arg6) = (m ((c : Thread nD τ).loc main_arg6)) := W5_of_kept m ρ c _ (by kept) (by kept) (by kept) (by kept) (by kept)

/-- The out-degree counts. -/
theorem W1_v3 : (W1 m ρ c (Proc.devRef .tc main_v3) : FVec Ideal S50000 .f32) = Cert.Spec.degCount (m ((c : Thread nD τ).loc main_arg1)) Cert.Spec.ones :=
  s00_v3 (W0 m ρ c)
theorem W1_v0 : (W1 m ρ c (Proc.devRef .tc main_v0) : FVec Ideal S600000 .f32) = Cert.Spec.ones := s00_v0 (W0 m ρ c)
theorem W1_cst1 : (W1 m ρ c (Proc.devRef .tc main_cst_1) : FVec Ideal S_ .f32) = (constant (F := Ideal) Cert.ReferenceIdeal.S_ .f32 0x3F800000#32) := s00_cst1 (W0 m ρ c)

/-- … clipped below at one. -/
theorem W2_v4 : (W2 m ρ c (Proc.devRef .tc main_v4) : FVec Ideal S50000 .f32)
    = Cert.Spec.clipBelow (constant (F := Ideal) Cert.ReferenceIdeal.S_ .f32 0x3F800000#32) (Cert.Spec.degCount (m ((c : Thread nD τ).loc main_arg1)) Cert.Spec.ones) := by
  refine (s01_v4 (W1 m ρ c)).trans ?_
  rw [W1_cst1, W1_v3]
theorem W2_v0 : (W2 m ρ c (Proc.devRef .tc main_v0) : FVec Ideal S600000 .f32) = Cert.Spec.ones :=
  (by keeps : after hostOps0_1 (W1 m ρ c) (Proc.devRef .tc main_v0) = W1 m ρ c (Proc.devRef .tc main_v0)).trans (W1_v0 m ρ c)
theorem W2_arg2 : W2 m ρ c (Proc.devRef .tc main_arg2) = (m ((c : Thread nD τ).loc main_arg2)) :=
  (by keeps : after hostOps0_1 (W1 m ρ c) (Proc.devRef .tc main_arg2) = W1 m ρ c (Proc.devRef .tc main_arg2)).trans
    (by keeps : after hostOps0 (W0 m ρ c) (Proc.devRef .tc main_arg2) = W0 m ρ c (Proc.devRef .tc main_arg2))

/-- The in-degree counts, clipped below at one. -/
theorem W3_v7 : (W3 m ρ c (Proc.devRef .tc main_v7) : FVec Ideal S50000 .f32) = Cert.Spec.degCount (m ((c : Thread nD τ).loc main_arg2)) Cert.Spec.ones := by
  refine (s02_v7 (W2 m ρ c)).trans ?_
  rw [W2_arg2, W2_v0]
theorem W3_cst3 : (W3 m ρ c (Proc.devRef .tc main_cst_3) : FVec Ideal S_ .f32) = (constant (F := Ideal) Cert.ReferenceIdeal.S_ .f32 0x3F800000#32) := s02_cst3 (W2 m ρ c)
theorem W4_v8 : (W4 m ρ c (Proc.devRef .tc main_v8) : FVec Ideal S50000 .f32)
    = Cert.Spec.clipBelow (constant (F := Ideal) Cert.ReferenceIdeal.S_ .f32 0x3F800000#32) (Cert.Spec.degCount (m ((c : Thread nD τ).loc main_arg2)) Cert.Spec.ones) := by
  refine (s03_v8 (W3 m ρ c)).trans ?_
  rw [W3_cst3, W3_v7]
theorem W4_v4 : (W4 m ρ c (Proc.devRef .tc main_v4) : FVec Ideal S50000 .f32)
    = Cert.Spec.clipBelow (constant (F := Ideal) Cert.ReferenceIdeal.S_ .f32 0x3F800000#32) (Cert.Spec.degCount (m ((c : Thread nD τ).loc main_arg1)) Cert.Spec.ones) :=
  (by keeps : after hostOps0_3 (W3 m ρ c) (Proc.devRef .tc main_v4) = W3 m ρ c (Proc.devRef .tc main_v4)).trans
    ((by keeps : after hostOps0_2 (W2 m ρ c) (Proc.devRef .tc main_v4) = W2 m ρ c (Proc.devRef .tc main_v4)).trans (W2_v4 m ρ c))

/-- The degree factors at the first call's entry. -/
theorem W5_v9 : (W5 m ρ c (Proc.devRef .tc main_v9) : FVec Ideal S50000 .f32) = Cert.Spec.degInv (m ((c : Thread nD τ).loc main_arg1)) := by
  refine (s04_v9 (W4 m ρ c)).trans ?_
  rw [W4_v4, Cert.Spec.degInv_eq]
theorem W5_v10 : (W5 m ρ c (Proc.devRef .tc main_v10) : FVec Ideal S50000 .f32) = Cert.Spec.degInv (m ((c : Thread nD τ).loc main_arg2)) := by
  refine (s04_v10 (W4 m ρ c)).trans ?_
  rw [W4_v8, Cert.Spec.degInv_eq]
theorem W5_v11 : (W5 m ρ c (Proc.devRef .tc main_v11) : FVec Ideal S50000x1 .f32) = Cert.Spec.col (Cert.Spec.degInv (m ((c : Thread nD τ).loc main_arg1))) := by
  refine (s04_v11 (W4 m ρ c)).trans ?_
  rw [W4_v4, Cert.Spec.degInv_eq]

/-! ## The first layer -/

/-- After the first call: the scaled product of the features. -/
theorem W6_v12 : (W6 m ρ c (Proc.devRef .tc main_v12) : FVec Ideal S50000x128 .f32)
    = Cert.Spec.scaledProd602 (m ((c : Thread nD τ).loc main_arg0)) (Cert.Spec.col (Cert.Spec.degInv (m ((c : Thread nD τ).loc main_arg1)))) (m ((c : Thread nD τ).loc main_arg3)) := by
  refine (W6_arr m ρ c 3).trans ((Cert.KernelIdeal.Region0.final (V5 m ρ) c).trans ?_)
  show Cert.Spec.scaledProd602 (W5 m ρ c (Proc.devRef .tc main_arg0)) (W5 m ρ c (Proc.devRef .tc main_v11)) (W5 m ρ c (Proc.devRef .tc main_arg3)) = _
  rw [W5_arg0, W5_v11, W5_arg3]

theorem W6_v10 : (W6 m ρ c (Proc.devRef .tc main_v10) : FVec Ideal S50000 .f32) = Cert.Spec.degInv (m ((c : Thread nD τ).loc main_arg2)) :=
  (W6_of_ne m ρ c main_v10 (by decide)).trans (W5_v10 m ρ c)
theorem W6_v9 : (W6 m ρ c (Proc.devRef .tc main_v9) : FVec Ideal S50000 .f32) = Cert.Spec.degInv (m ((c : Thread nD τ).loc main_arg1)) :=
  (W6_of_ne m ρ c main_v9 (by decide)).trans (W5_v9 m ρ c)
theorem W6_arg1 : W6 m ρ c (Proc.devRef .tc main_arg1) = (m ((c : Thread nD τ).loc main_arg1)) := (W6_of_ne m ρ c main_arg1 (by decide)).trans (W5_arg1 m ρ c)
theorem W6_arg2 : W6 m ρ c (Proc.devRef .tc main_arg2) = (m ((c : Thread nD τ).loc main_arg2)) := (W6_of_ne m ρ c main_arg2 (by decide)).trans (W5_arg2 m ρ c)
theorem W6_arg4 : W6 m ρ c (Proc.devRef .tc main_arg4) = (m ((c : Thread nD τ).loc main_arg4)) := (W6_of_ne m ρ c main_arg4 (by decide)).trans (W5_arg4 m ρ c)
theorem W6_arg5 : W6 m ρ c (Proc.devRef .tc main_arg5) = (m ((c : Thread nD τ).loc main_arg5)) := (W6_of_ne m ρ c main_arg5 (by decide)).trans (W5_arg5 m ρ c)
theorem W6_arg6 : W6 m ρ c (Proc.devRef .tc main_arg6) = (m ((c : Thread nD τ).loc main_arg6)) := (W6_of_ne m ρ c main_arg6 (by decide)).trans (W5_arg6 m ρ c)

/-- After the second call: the first layer's output. -/
theorem W8_v25 : (W8 m ρ c (Proc.devRef .tc main_v25) : FVec Ideal S50000x128 .f32)
    = Cert.Spec.layer602 (m ((c : Thread nD τ).loc main_arg0)) (m ((c : Thread nD τ).loc main_arg3)) (m ((c : Thread nD τ).loc main_arg4)) (m ((c : Thread nD τ).loc main_arg1)) (m ((c : Thread nD τ).loc main_arg2)) := by
  refine (W8_arr m ρ c 3).trans ((Cert.KernelIdeal.Region1.final (V7 m ρ) c).trans ?_)
  show Cert.Spec.scaleShiftRelu (after hostOps1 (W6 m ρ c) (Proc.devRef .tc main_v22)) (after hostOps1 (W6 m ρ c) (Proc.devRef .tc main_v23))
    (after hostOps1 (W6 m ρ c) (Proc.devRef .tc main_v24)) = _
  rw [s1_v22, s1_v23, s1_v24, W6_v12, W6_arg1, W6_arg2, W6_v10, W6_arg4]
  rfl

/-! ## The second layer -/

theorem W8_v9 : (W8 m ρ c (Proc.devRef .tc main_v9) : FVec Ideal S50000 .f32) = Cert.Spec.degInv (m ((c : Thread nD τ).loc main_arg1)) :=
  (W8_of_ne m ρ c main_v9 (by decide)).trans
    ((by keeps : after hostOps1 (W6 m ρ c) (Proc.devRef .tc main_v9) = W6 m ρ c (Proc.devRef .tc main_v9)).trans (W6_v9 m ρ c))
theorem W8_v10 : (W8 m ρ c (Proc.devRef .tc main_v10) : FVec Ideal S50000 .f32) = Cert.Spec.degInv (m ((c : Thread nD τ).loc main_arg2)) :=
  (W8_of_ne m ρ c main_v10 (by decide)).trans
    ((by keeps : after hostOps1 (W6 m ρ c) (Proc.devRef .tc main_v10) = W6 m ρ c (Proc.devRef .tc main_v10)).trans (W6_v10 m ρ c))
theorem W8_arg1 : W8 m ρ c (Proc.devRef .tc main_arg1) = (m ((c : Thread nD τ).loc main_arg1)) :=
  (W8_of_ne m ρ c main_arg1 (by decide)).trans
    ((by keeps : after hostOps1 (W6 m ρ c) (Proc.devRef .tc main_arg1) = W6 m ρ c (Proc.devRef .tc main_arg1)).trans (W6_arg1 m ρ c))
theorem W8_arg2 : W8 m ρ c (Proc.devRef .tc main_arg2) = (m ((c : Thread nD τ).loc main_arg2)) :=
  (W8_of_ne m ρ c main_arg2 (by decide)).trans
    ((by keeps : after hostOps1 (W6 m ρ c) (Proc.devRef .tc main_arg2) = W6 m ρ c (Proc.devRef .tc main_arg2)).trans (W6_arg2 m ρ c))
theorem W8_arg5 : W8 m ρ c (Proc.devRef .tc main_arg5) = (m ((c : Thread nD τ).loc main_arg5)) :=
  (W8_of_ne m ρ c main_arg5 (by decide)).trans
    ((by keeps : after hostOps1 (W6 m ρ c) (Proc.devRef .tc main_arg5) = W6 m ρ c (Proc.devRef .tc main_arg5)).trans (W6_arg5 m ρ c))
theorem W8_arg6 : W8 m ρ c (Proc.devRef .tc main_arg6) = (m ((c : Thread nD τ).loc main_arg6)) :=
  (W8_of_ne m ρ c main_arg6 (by decide)).trans
    ((by keeps : after hostOps1 (W6 m ρ c) (Proc.devRef .tc main_arg6) = W6 m ρ c (Proc.devRef .tc main_arg6)).trans (W6_arg6 m ρ c))

/-- After the third call: the scaled product of the first layer's output. -/
theorem W10_v27 : (W10 m ρ c (Proc.devRef .tc main_v27) : FVec Ideal S50000x128 .f32)
    = Cert.Spec.scaledProd128 (Cert.Spec.layer602 (m ((c : Thread nD τ).loc main_arg0)) (m ((c : Thread nD τ).loc main_arg3)) (m ((c : Thread nD τ).loc main_arg4)) (m ((c : Thread nD τ).loc main_arg1)) (m ((c : Thread nD τ).loc main_arg2)))
        (Cert.Spec.col (Cert.Spec.degInv (m ((c : Thread nD τ).loc main_arg1)))) (m ((c : Thread nD τ).loc main_arg5)) := by
  refine (W10_arr m ρ c 3).trans ((Cert.KernelIdeal.Region2.final (V9 m ρ) c).trans ?_)
  show Cert.Spec.scaledProd128 (after hostOps2 (W8 m ρ c) (Proc.devRef .tc main_v25)) (after hostOps2 (W8 m ρ c) (Proc.devRef .tc main_v26))
    (after hostOps2 (W8 m ρ c) (Proc.devRef .tc main_arg5)) = _
  rw [s2_v26, (by keeps : after hostOps2 (W8 m ρ c) (Proc.devRef .tc main_v25) = W8 m ρ c (Proc.devRef .tc main_v25)),
    (by keeps : after hostOps2 (W8 m ρ c) (Proc.devRef .tc main_arg5) = W8 m ρ c (Proc.devRef .tc main_arg5)), W8_v25, W8_v9, W8_arg5]

theorem W10_v9 : (W10 m ρ c (Proc.devRef .tc main_v9) : FVec Ideal S50000 .f32) = Cert.Spec.degInv (m ((c : Thread nD τ).loc main_arg1)) :=
  (W10_of_ne m ρ c main_v9 (by decide)).trans
    ((by keeps : after hostOps2 (W8 m ρ c) (Proc.devRef .tc main_v9) = W8 m ρ c (Proc.devRef .tc main_v9)).trans (W8_v9 m ρ c))
theorem W10_v10 : (W10 m ρ c (Proc.devRef .tc main_v10) : FVec Ideal S50000 .f32) = Cert.Spec.degInv (m ((c : Thread nD τ).loc main_arg2)) :=
  (W10_of_ne m ρ c main_v10 (by decide)).trans
    ((by keeps : after hostOps2 (W8 m ρ c) (Proc.devRef .tc main_v10) = W8 m ρ c (Proc.devRef .tc main_v10)).trans (W8_v10 m ρ c))
theorem W10_arg1 : W10 m ρ c (Proc.devRef .tc main_arg1) = (m ((c : Thread nD τ).loc main_arg1)) :=
  (W10_of_ne m ρ c main_arg1 (by decide)).trans
    ((by keeps : after hostOps2 (W8 m ρ c) (Proc.devRef .tc main_arg1) = W8 m ρ c (Proc.devRef .tc main_arg1)).trans (W8_arg1 m ρ c))
theorem W10_arg2 : W10 m ρ c (Proc.devRef .tc main_arg2) = (m ((c : Thread nD τ).loc main_arg2)) :=
  (W10_of_ne m ρ c main_arg2 (by decide)).trans
    ((by keeps : after hostOps2 (W8 m ρ c) (Proc.devRef .tc main_arg2) = W8 m ρ c (Proc.devRef .tc main_arg2)).trans (W8_arg2 m ρ c))
theorem W10_arg6 : W10 m ρ c (Proc.devRef .tc main_arg6) = (m ((c : Thread nD τ).loc main_arg6)) :=
  (W10_of_ne m ρ c main_arg6 (by decide)).trans
    ((by keeps : after hostOps2 (W8 m ρ c) (Proc.devRef .tc main_arg6) = W8 m ρ c (Proc.devRef .tc main_arg6)).trans (W8_arg6 m ρ c))

/-- The second layer's output, as the specification names it. -/
abbrev x2 : FVec Ideal Cert.ReferenceIdeal.S50000x128 .f32 :=
  Cert.Spec.layer128 (Cert.Spec.layer602 (m ((c : Thread nD τ).loc main_arg0)) (m ((c : Thread nD τ).loc main_arg3)) (m ((c : Thread nD τ).loc main_arg4)) (m ((c : Thread nD τ).loc main_arg1)) (m ((c : Thread nD τ).loc main_arg2))) (m ((c : Thread nD τ).loc main_arg5)) (m ((c : Thread nD τ).loc main_arg6)) (m ((c : Thread nD τ).loc main_arg1)) (m ((c : Thread nD τ).loc main_arg2))

/-- After the fourth call: the second layer's output. -/
theorem W12_v40 : (W12 m ρ c (Proc.devRef .tc main_v40) : FVec Ideal S50000x128 .f32) = x2 m c := by
  refine (W12_arr m ρ c 3).trans ((Cert.KernelIdeal.Region3.final (V11 m ρ) c).trans ?_)
  show Cert.Spec.scaleShiftRelu (after hostOps3 (W10 m ρ c) (Proc.devRef .tc main_v37)) (after hostOps3 (W10 m ρ c) (Proc.devRef .tc main_v38))
    (after hostOps3 (W10 m ρ c) (Proc.devRef .tc main_v39)) = _
  rw [s3_v37, s3_v38, s3_v39, W10_v27, W10_arg1, W10_arg2, W10_v10, W10_arg6]
  rfl

/-! ## The third layer -/

theorem W12_v9 : (W12 m ρ c (Proc.devRef .tc main_v9) : FVec Ideal S50000 .f32) = Cert.Spec.degInv (m ((c : Thread nD τ).loc main_arg1)) :=
  (W12_of_ne m ρ c main_v9 (by decide)).trans
    ((by keeps : after hostOps3 (W10 m ρ c) (Proc.devRef .tc main_v9) = W10 m ρ c (Proc.devRef .tc main_v9)).trans (W10_v9 m ρ c))
theorem W12_v10 : (W12 m ρ c (Proc.devRef .tc main_v10) : FVec Ideal S50000 .f32) = Cert.Spec.degInv (m ((c : Thread nD τ).loc main_arg2)) :=
  (W12_of_ne m ρ c main_v10 (by decide)).trans
    ((by keeps : after hostOps3 (W10 m ρ c) (Proc.devRef .tc main_v10) = W10 m ρ c (Proc.devRef .tc main_v10)).trans (W10_v10 m ρ c))

/-- An argument the later calls and stretches only read: what the fold's last boundary holds there, walked back. -/
theorem W17_arg (b : Ref sig .tc) (h6 : ∀ w, Pipeline.arrRef spec6 w ≠ b) :
    W17 m ρ c (Proc.devRef .tc b) = W18 m ρ c (Proc.devRef .tc b) := (W18_of_ne m ρ c b h6).symm

theorem W16_arg1 : W16 m ρ c (Proc.devRef .tc main_arg1) = (m ((c : Thread nD τ).loc main_arg1)) :=
  (by keeps : after hostOps6 (W16 m ρ c) (Proc.devRef .tc main_arg1) = W16 m ρ c (Proc.devRef .tc main_arg1)).symm.trans
    ((W17_arg m ρ c main_arg1 (by decide)).trans (W18_main_arg1 m ρ c))
theorem W16_arg2 : W16 m ρ c (Proc.devRef .tc main_arg2) = (m ((c : Thread nD τ).loc main_arg2)) :=
  (by keeps : after hostOps6 (W16 m ρ c) (Proc.devRef .tc main_arg2) = W16 m ρ c (Proc.devRef .tc main_arg2)).symm.trans
    ((W17_arg m ρ c main_arg2 (by decide)).trans (W18_main_arg2 m ρ c))
theorem W16_arg7 : W16 m ρ c (Proc.devRef .tc main_arg7) = (m ((c : Thread nD τ).loc main_arg7)) :=
  (by keeps : after hostOps6 (W16 m ρ c) (Proc.devRef .tc main_arg7) = W16 m ρ c (Proc.devRef .tc main_arg7)).symm.trans
    ((W17_arg m ρ c main_arg7 (by decide)).trans (W18_main_arg7 m ρ c))
theorem W16_arg8 : W16 m ρ c (Proc.devRef .tc main_arg8) = (m ((c : Thread nD τ).loc main_arg8)) :=
  (by keeps : after hostOps6 (W16 m ρ c) (Proc.devRef .tc main_arg8) = W16 m ρ c (Proc.devRef .tc main_arg8)).symm.trans
    ((W17_arg m ρ c main_arg8 (by decide)).trans (W18_main_arg8 m ρ c))
theorem W16_arg10 : W16 m ρ c (Proc.devRef .tc main_arg10) = (m ((c : Thread nD τ).loc main_arg10)) :=
  (by keeps : after hostOps6 (W16 m ρ c) (Proc.devRef .tc main_arg10) = W16 m ρ c (Proc.devRef .tc main_arg10)).symm.trans
    ((W17_arg m ρ c main_arg10 (by decide)).trans (W18_main_arg10 m ρ c))

theorem W14_arg1 : W14 m ρ c (Proc.devRef .tc main_arg1) = (m ((c : Thread nD τ).loc main_arg1)) :=
  (by keeps : after hostOps5 (W14 m ρ c) (Proc.devRef .tc main_arg1) = W14 m ρ c (Proc.devRef .tc main_arg1)).symm.trans
    ((W16_of_ne m ρ c main_arg1 (by decide)).symm.trans (W16_arg1 m ρ c))
theorem W14_arg2 : W14 m ρ c (Proc.devRef .tc main_arg2) = (m ((c : Thread nD τ).loc main_arg2)) :=
  (by keeps : after hostOps5 (W14 m ρ c) (Proc.devRef .tc main_arg2) = W14 m ρ c (Proc.devRef .tc main_arg2)).symm.trans
    ((W16_of_ne m ρ c main_arg2 (by decide)).symm.trans (W16_arg2 m ρ c))
theorem W14_arg7 : W14 m ρ c (Proc.devRef .tc main_arg7) = (m ((c : Thread nD τ).loc main_arg7)) :=
  (by keeps : after hostOps5 (W14 m ρ c) (Proc.devRef .tc main_arg7) = W14 m ρ c (Proc.devRef .tc main_arg7)).symm.trans
    ((W16_of_ne m ρ c main_arg7 (by decide)).symm.trans (W16_arg7 m ρ c))
theorem W14_arg8 : W14 m ρ c (Proc.devRef .tc main_arg8) = (m ((c : Thread nD τ).loc main_arg8)) :=
  (by keeps : after hostOps5 (W14 m ρ c) (Proc.devRef .tc main_arg8) = W14 m ρ c (Proc.devRef .tc main_arg8)).symm.trans
    ((W16_of_ne m ρ c main_arg8 (by decide)).symm.trans (W16_arg8 m ρ c))

/-- The fifth call reads its weights and leaves them. -/
theorem W13_arg7 : W13 m ρ c (Proc.devRef .tc main_arg7) = (m ((c : Thread nD τ).loc main_arg7)) :=
  ((W14_arr m ρ c 2).trans (((dat4 (V13 m ρ) c).arrAt_in 2 rfl _).trans (A_eq4 (V13 m ρ) c 2))).symm.trans (W14_arg7 m ρ c)

/-- After the fifth call: the scaled product of the second layer's output. -/
theorem W14_v42 : (W14 m ρ c (Proc.devRef .tc main_v42) : FVec Ideal S50000x128 .f32)
    = Cert.Spec.scaledProd128 (x2 m c) (Cert.Spec.col (Cert.Spec.degInv (m ((c : Thread nD τ).loc main_arg1)))) (m ((c : Thread nD τ).loc main_arg7)) := by
  refine (W14_arr m ρ c 3).trans ((Cert.KernelIdeal.Region4.final (V13 m ρ) c).trans ?_)
  show Cert.Spec.scaledProd128 (after hostOps4 (W12 m ρ c) (Proc.devRef .tc main_v40)) (after hostOps4 (W12 m ρ c) (Proc.devRef .tc main_v41))
    (W13 m ρ c (Proc.devRef .tc main_arg7)) = _
  rw [s4_v41, (by keeps : after hostOps4 (W12 m ρ c) (Proc.devRef .tc main_v40) = W12 m ρ c (Proc.devRef .tc main_v40)), W12_v40, W12_v9, W13_arg7]

/-- The fifth call reads the second layer's output and leaves it. -/
theorem W14_v40 : (W14 m ρ c (Proc.devRef .tc main_v40) : FVec Ideal S50000x128 .f32) = x2 m c :=
  ((W14_arr m ρ c 0).trans (((dat4 (V13 m ρ) c).arrAt_in 0 rfl _).trans (A_eq4 (V13 m ρ) c 0))).trans
    ((by keeps : after hostOps4 (W12 m ρ c) (Proc.devRef .tc main_v40) = W12 m ρ c (Proc.devRef .tc main_v40)).trans (W12_v40 m ρ c))

theorem W14_v10 : (W14 m ρ c (Proc.devRef .tc main_v10) : FVec Ideal S50000 .f32) = Cert.Spec.degInv (m ((c : Thread nD τ).loc main_arg2)) :=
  (W14_of_ne m ρ c main_v10 (by decide)).trans
    ((by keeps : after hostOps4 (W12 m ρ c) (Proc.devRef .tc main_v10) = W12 m ρ c (Proc.devRef .tc main_v10)).trans (W12_v10 m ρ c))

/-- The third layer's output, as the specification names it. -/
abbrev x3 : FVec Ideal Cert.ReferenceIdeal.S50000x128 .f32 := Cert.Spec.layer128 (x2 m c) (m ((c : Thread nD τ).loc main_arg7)) (m ((c : Thread nD τ).loc main_arg8)) (m ((c : Thread nD τ).loc main_arg1)) (m ((c : Thread nD τ).loc main_arg2))

/-- After the sixth call: the third layer's output. -/
theorem W16_v55 : (W16 m ρ c (Proc.devRef .tc main_v55) : FVec Ideal S50000x128 .f32) = x3 m c := by
  refine (W16_arr m ρ c 3).trans ((Cert.KernelIdeal.Region5.final (V15 m ρ) c).trans ?_)
  show Cert.Spec.scaleShiftRelu (after hostOps5 (W14 m ρ c) (Proc.devRef .tc main_v52)) (after hostOps5 (W14 m ρ c) (Proc.devRef .tc main_v53))
    (after hostOps5 (W14 m ρ c) (Proc.devRef .tc main_v54)) = _
  rw [s5_v52, s5_v53, s5_v54, W14_v42, W14_arg1, W14_arg2, W14_v10, W14_arg8]
  rfl

/-! ## The last call -/

theorem W16_v40 : (W16 m ρ c (Proc.devRef .tc main_v40) : FVec Ideal S50000x128 .f32) = x2 m c :=
  (W16_of_ne m ρ c main_v40 (by decide)).trans
    ((by keeps : after hostOps5 (W14 m ρ c) (Proc.devRef .tc main_v40) = W14 m ρ c (Proc.devRef .tc main_v40)).trans (W14_v40 m ρ c))

/-- The last call reads its weights and leaves them. -/
theorem W17_arg9 : W17 m ρ c (Proc.devRef .tc main_arg9) = (m ((c : Thread nD τ).loc main_arg9)) :=
  ((W18_arr m ρ c 2).trans (((dat6 (V17 m ρ) c).arrAt_in 2 rfl _).trans (A_eq6 (V17 m ρ) c 2))).symm.trans (W18_main_arg9 m ρ c)

/-- THE RESULT: what the fold's last boundary holds at the result array is the network of the arguments. -/
theorem result_eq : (W18 m ρ c (Proc.devRef .tc main_v57) : FVec Ideal S50000x41 .f32)
    = Cert.Spec.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W18_arr m ρ c 4).trans ((Cert.KernelIdeal.Region6.final (V17 m ρ) c).trans ?_)
  show Cert.Spec.sumReluProd (after hostOps6 (W16 m ρ c) (Proc.devRef .tc main_v55)) (after hostOps6 (W16 m ρ c) (Proc.devRef .tc main_v40))
    (W17 m ρ c (Proc.devRef .tc main_arg9)) (after hostOps6 (W16 m ρ c) (Proc.devRef .tc main_v56)) = _
  rw [s6_v56, (by keeps : after hostOps6 (W16 m ρ c) (Proc.devRef .tc main_v55) = W16 m ρ c (Proc.devRef .tc main_v55)),
    (by keeps : after hostOps6 (W16 m ρ c) (Proc.devRef .tc main_v40) = W16 m ρ c (Proc.devRef .tc main_v40)), W16_v55, W16_v40, W17_arg9, W16_arg10]
  rfl

end Cert.KernelIdeal.Fold

end
-- ==== Proof.RefForm.lean ====
/-
  The reference program's result is the network of the specification: its composed term, operation by operation, is
  the specification's text with the layer's pieces unfolded (the reference recomputes the degrees in every layer and the
  second layer twice; the copies are the same terms).
-/
import proofs.«175351_j60224031424524_1_alg».proof.Proof.Gen.ReferenceIdeal.Run
import proofs.«175351_j60224031424524_1_alg».proof.Proof.Spec

noncomputable section

namespace Cert.ReferenceIdeal.RefForm

open Cert.ReferenceIdeal Cert.ReferenceIdeal.Gen Cert.ReferenceIdeal.Value
open Idealize.ShloMosaic Idealize.ShloMosaic.TcCoe Idealize.SL.Sem

set_option maxRecDepth 16384 in
/-- The reference run's result term is the specification's network of the arguments. -/
theorem result_eq (m : (ℓ : Loc nD τ sig) → Buf (Elt Ideal) ℓ) (c : Dev nD) :
    res_main_v133 (F := Ideal) m c
      = Cert.Spec.net (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10)) := by
  unfold res_main_v133 Cert.Spec.net Cert.Spec.layer128 Cert.Spec.layer602 Cert.Spec.sumReluProd Cert.Spec.scaleShiftRelu
    Cert.Spec.agg Cert.Spec.scaledProd128 Cert.Spec.scaledProd602 Cert.Spec.col Cert.Spec.row128 Cert.Spec.row41
    Cert.Spec.degInv Cert.Spec.wrapIdx
  rfl

end Cert.ReferenceIdeal.RefForm

end
-- ==== Proof.lean ====
/-
  A three-layer graph convolution network with a residual sum and a final dense layer, as a kernel program of seven
  pallas_calls among host operations, against its plain reference: equal results at the ideal values.

  Both programs compute the degree factors, and per layer the message passing (gather at the edges' sources, scatter-add
  at the edges' targets), with the same host operations.  They differ in where the dense work sits: the kernel program
  does the row scaling and the dense product, the scaling and bias with relu, and the final relu of the sum with the last
  product and bias, in pallas_calls over blocks of 2000 rows, with the products taken through a narrower float format;
  the reference does them as whole-array host operations, recomputes the degree factors in every layer and the second
  layer twice.  At the ideal values a change of float format is the identity and a blockwise product into a zero
  accumulator is the host's product, so each pallas_call's result array is the matching whole-array function
  (Region0 … Region6), the kernel program's fold through the host stretches composes them into the specification's
  network (Fold), and the reference's composed term is that network as written (RefForm).  No law of arithmetic beyond
  these identifications is used, so the precondition is never opened.
-/
import proofs.«175351_j60224031424524_1_alg».proof.Defs
import proofs.«175351_j60224031424524_1_alg».proof.Proof.Gen.Kernel
import proofs.«175351_j60224031424524_1_alg».proof.Proof.Gen.Kernel.Skeleton
import proofs.«175351_j60224031424524_1_alg».proof.Proof.Gen.Kernel.Launch
import proofs.«175351_j60224031424524_1_alg».proof.Proof.Gen.Kernel.Points
import proofs.«175351_j60224031424524_1_alg».proof.Proof.Gen.Kernel.Frame
import proofs.«175351_j60224031424524_1_alg».proof.Proof.Gen.KernelIdeal
import proofs.«175351_j60224031424524_1_alg».proof.Proof.Gen.KernelIdeal.Skeleton
import proofs.«175351_j60224031424524_1_alg».proof.Proof.Gen.KernelIdeal.Launch
import proofs.«175351_j60224031424524_1_alg».proof.Proof.Gen.KernelIdeal.Points
import proofs.«175351_j60224031424524_1_alg».proof.Proof.Gen.KernelIdeal.Frame
import proofs.«175351_j60224031424524_1_alg».proof.Proof.Gen.ReferenceIdeal
import proofs.«175351_j60224031424524_1_alg».proof.Proof.Gen.Pre_finite_inputs
import proofs.«175351_j60224031424524_1_alg».proof.Proof.Gen.ReferenceIdeal.Run
import proofs.«175351_j60224031424524_1_alg».proof.Proof.Gen.ReferenceIdeal.Read
import proofs.«175351_j60224031424524_1_alg».proof.Proof.KernelRun
import proofs.«175351_j60224031424524_1_alg».proof.Proof.Fold
import proofs.«175351_j60224031424524_1_alg».proof.Proof.RefForm
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the specification's network of the (agreeing) arguments. -/
theorem algebraic : Cert.algebraic_KernelIdeal_ReferenceIdeal := by
  intro m ρ m' ρ' _ hagree
  refine ⟨fun c => Cert.Spec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Fold.result_eq m ρ c), (h c).2⟩) (Cert.KernelIdeal.ValueRun.run m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.RefForm.result_eq, e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
